-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64x128 : Shape := ⟨3, ![16384, 64, 128]⟩
abbrev S_ : Shape := ⟨0, ![]⟩

class Facts : Prop where
  bcast_S_S16384x64x128 : S_.BroadcastsInDim S16384x64x128 (![] : Fin 0 → Fin S16384x64x128.rank)
  reducesTo_S16384x64x128_S_d0_1_2 : S16384x64x128.ReducesTo [0, 1, 2] S_
  h_S_ : 0 < S_.numel

variable [Facts]

def fn {F : FTy → Type} [FloatOps F] (main_arg0 : FVec F S16384x64x128 .f32) : IVec S_ 1 :=
  let main_v0 : FVec F S16384x64x128 .f32 := Host.absf main_arg0
  let main_cst : FVec F S_ .f32 := constant S_ .f32 0x7F800000#32
  let main_v1 : FVec F S16384x64x128 .f32 := broadcastInDim S16384x64x128 ![] bcast_S_S16384x64x128 main_cst
  let main_v2 : IVec S16384x64x128 1 := cmpf .olt main_v0 main_v1
  let main_c : IVec S_ 1 := constantI S_ 1 1#1
  let main_v3 : IVec S_ 1 := (fun x v => Host.reduce IntOp.andi x v reducesTo_S16384x64x128_S_d0_1_2 h_S_) main_v2 main_c
  main_v3
-- ==== Kernel.lean ====
abbrev S16384x64x128 : Shape := ⟨3, ![16384, 64, 128]⟩
abbrev S16384x2016 : Shape := ⟨2, ![16384, 2016]⟩
abbrev S256x64x128 : Shape := ⟨3, ![256, 64, 128]⟩
abbrev S256x2016 : Shape := ⟨2, ![256, 2016]⟩
abbrev S256x64x64 : Shape := ⟨3, ![256, 64, 64]⟩
abbrev S256x1x63 : Shape := ⟨3, ![256, 1, 63]⟩
abbrev S256x63 : Shape := ⟨2, ![256, 63]⟩
abbrev S256x1x62 : Shape := ⟨3, ![256, 1, 62]⟩
abbrev S256x62 : Shape := ⟨2, ![256, 62]⟩
abbrev S256x1x61 : Shape := ⟨3, ![256, 1, 61]⟩
abbrev S256x61 : Shape := ⟨2, ![256, 61]⟩
abbrev S256x1x60 : Shape := ⟨3, ![256, 1, 60]⟩
abbrev S256x60 : Shape := ⟨2, ![256, 60]⟩
abbrev S256x1x59 : Shape := ⟨3, ![256, 1, 59]⟩
abbrev S256x59 : Shape := ⟨2, ![256, 59]⟩
abbrev S256x1x58 : Shape := ⟨3, ![256, 1, 58]⟩
abbrev S256x58 : Shape := ⟨2, ![256, 58]⟩
abbrev S256x1x57 : Shape := ⟨3, ![256, 1, 57]⟩
abbrev S256x57 : Shape := ⟨2, ![256, 57]⟩
abbrev S256x1x56 : Shape := ⟨3, ![256, 1, 56]⟩
abbrev S256x56 : Shape := ⟨2, ![256, 56]⟩
abbrev S256x1x55 : Shape := ⟨3, ![256, 1, 55]⟩
abbrev S256x55 : Shape := ⟨2, ![256, 55]⟩
abbrev S256x1x54 : Shape := ⟨3, ![256, 1, 54]⟩
abbrev S256x54 : Shape := ⟨2, ![256, 54]⟩
abbrev S256x1x53 : Shape := ⟨3, ![256, 1, 53]⟩
abbrev S256x53 : Shape := ⟨2, ![256, 53]⟩
abbrev S256x1x52 : Shape := ⟨3, ![256, 1, 52]⟩
abbrev S256x52 : Shape := ⟨2, ![256, 52]⟩
abbrev S256x1x51 : Shape := ⟨3, ![256, 1, 51]⟩
abbrev S256x51 : Shape := ⟨2, ![256, 51]⟩
abbrev S256x1x50 : Shape := ⟨3, ![256, 1, 50]⟩
abbrev S256x50 : Shape := ⟨2, ![256, 50]⟩
abbrev S256x1x49 : Shape := ⟨3, ![256, 1, 49]⟩
abbrev S256x49 : Shape := ⟨2, ![256, 49]⟩
abbrev S256x1x48 : Shape := ⟨3, ![256, 1, 48]⟩
abbrev S256x48 : Shape := ⟨2, ![256, 48]⟩
abbrev S256x1x47 : Shape := ⟨3, ![256, 1, 47]⟩
abbrev S256x47 : Shape := ⟨2, ![256, 47]⟩
abbrev S256x1x46 : Shape := ⟨3, ![256, 1, 46]⟩
abbrev S256x46 : Shape := ⟨2, ![256, 46]⟩
abbrev S256x1x45 : Shape := ⟨3, ![256, 1, 45]⟩
abbrev S256x45 : Shape := ⟨2, ![256, 45]⟩
abbrev S256x1x44 : Shape := ⟨3, ![256, 1, 44]⟩
abbrev S256x44 : Shape := ⟨2, ![256, 44]⟩
abbrev S256x1x43 : Shape := ⟨3, ![256, 1, 43]⟩
abbrev S256x43 : Shape := ⟨2, ![256, 43]⟩
abbrev S256x1x42 : Shape := ⟨3, ![256, 1, 42]⟩
abbrev S256x42 : Shape := ⟨2, ![256, 42]⟩
abbrev S256x1x41 : Shape := ⟨3, ![256, 1, 41]⟩
abbrev S256x41 : Shape := ⟨2, ![256, 41]⟩
abbrev S256x1x40 : Shape := ⟨3, ![256, 1, 40]⟩
abbrev S256x40 : Shape := ⟨2, ![256, 40]⟩
abbrev S256x1x39 : Shape := ⟨3, ![256, 1, 39]⟩
abbrev S256x39 : Shape := ⟨2, ![256, 39]⟩
abbrev S256x1x38 : Shape := ⟨3, ![256, 1, 38]⟩
abbrev S256x38 : Shape := ⟨2, ![256, 38]⟩
abbrev S256x1x37 : Shape := ⟨3, ![256, 1, 37]⟩
abbrev S256x37 : Shape := ⟨2, ![256, 37]⟩
abbrev S256x1x36 : Shape := ⟨3, ![256, 1, 36]⟩
abbrev S256x36 : Shape := ⟨2, ![256, 36]⟩
abbrev S256x1x35 : Shape := ⟨3, ![256, 1, 35]⟩
abbrev S256x35 : Shape := ⟨2, ![256, 35]⟩
abbrev S256x1x34 : Shape := ⟨3, ![256, 1, 34]⟩
abbrev S256x34 : Shape := ⟨2, ![256, 34]⟩
abbrev S256x1x33 : Shape := ⟨3, ![256, 1, 33]⟩
abbrev S256x33 : Shape := ⟨2, ![256, 33]⟩
abbrev S256x1x32 : Shape := ⟨3, ![256, 1, 32]⟩
abbrev S256x32 : Shape := ⟨2, ![256, 32]⟩
abbrev S256x1x31 : Shape := ⟨3, ![256, 1, 31]⟩
abbrev S256x31 : Shape := ⟨2, ![256, 31]⟩
abbrev S256x1x30 : Shape := ⟨3, ![256, 1, 30]⟩
abbrev S256x30 : Shape := ⟨2, ![256, 30]⟩
abbrev S256x1x29 : Shape := ⟨3, ![256, 1, 29]⟩
abbrev S256x29 : Shape := ⟨2, ![256, 29]⟩
abbrev S256x1x28 : Shape := ⟨3, ![256, 1, 28]⟩
abbrev S256x28 : Shape := ⟨2, ![256, 28]⟩
abbrev S256x1x27 : Shape := ⟨3, ![256, 1, 27]⟩
abbrev S256x27 : Shape := ⟨2, ![256, 27]⟩
abbrev S256x1x26 : Shape := ⟨3, ![256, 1, 26]⟩
abbrev S256x26 : Shape := ⟨2, ![256, 26]⟩
abbrev S256x1x25 : Shape := ⟨3, ![256, 1, 25]⟩
abbrev S256x25 : Shape := ⟨2, ![256, 25]⟩
abbrev S256x1x24 : Shape := ⟨3, ![256, 1, 24]⟩
abbrev S256x24 : Shape := ⟨2, ![256, 24]⟩
abbrev S256x1x23 : Shape := ⟨3, ![256, 1, 23]⟩
abbrev S256x23 : Shape := ⟨2, ![256, 23]⟩
abbrev S256x1x22 : Shape := ⟨3, ![256, 1, 22]⟩
abbrev S256x22 : Shape := ⟨2, ![256, 22]⟩
abbrev S256x1x21 : Shape := ⟨3, ![256, 1, 21]⟩
abbrev S256x21 : Shape := ⟨2, ![256, 21]⟩
abbrev S256x1x20 : Shape := ⟨3, ![256, 1, 20]⟩
abbrev S256x20 : Shape := ⟨2, ![256, 20]⟩
abbrev S256x1x19 : Shape := ⟨3, ![256, 1, 19]⟩
abbrev S256x19 : Shape := ⟨2, ![256, 19]⟩
abbrev S256x1x18 : Shape := ⟨3, ![256, 1, 18]⟩
abbrev S256x18 : Shape := ⟨2, ![256, 18]⟩
abbrev S256x1x17 : Shape := ⟨3, ![256, 1, 17]⟩
abbrev S256x17 : Shape := ⟨2, ![256, 17]⟩
abbrev S256x1x16 : Shape := ⟨3, ![256, 1, 16]⟩
abbrev S256x16 : Shape := ⟨2, ![256, 16]⟩
abbrev S256x1x15 : Shape := ⟨3, ![256, 1, 15]⟩
abbrev S256x15 : Shape := ⟨2, ![256, 15]⟩
abbrev S256x1x14 : Shape := ⟨3, ![256, 1, 14]⟩
abbrev S256x14 : Shape := ⟨2, ![256, 14]⟩
abbrev S256x1x13 : Shape := ⟨3, ![256, 1, 13]⟩
abbrev S256x13 : Shape := ⟨2, ![256, 13]⟩
abbrev S256x1x12 : Shape := ⟨3, ![256, 1, 12]⟩
abbrev S256x12 : Shape := ⟨2, ![256, 12]⟩
abbrev S256x1x11 : Shape := ⟨3, ![256, 1, 11]⟩
abbrev S256x11 : Shape := ⟨2, ![256, 11]⟩
abbrev S256x1x10 : Shape := ⟨3, ![256, 1, 10]⟩
abbrev S256x10 : Shape := ⟨2, ![256, 10]⟩
abbrev S256x1x9 : Shape := ⟨3, ![256, 1, 9]⟩
abbrev S256x9 : Shape := ⟨2, ![256, 9]⟩
abbrev S256x1x8 : Shape := ⟨3, ![256, 1, 8]⟩
abbrev S256x8 : Shape := ⟨2, ![256, 8]⟩
abbrev S256x1x7 : Shape := ⟨3, ![256, 1, 7]⟩
abbrev S256x7 : Shape := ⟨2, ![256, 7]⟩
abbrev S256x1x6 : Shape := ⟨3, ![256, 1, 6]⟩
abbrev S256x6 : Shape := ⟨2, ![256, 6]⟩
abbrev S256x1x5 : Shape := ⟨3, ![256, 1, 5]⟩
abbrev S256x5 : Shape := ⟨2, ![256, 5]⟩
abbrev S256x1x4 : Shape := ⟨3, ![256, 1, 4]⟩
abbrev S256x4 : Shape := ⟨2, ![256, 4]⟩
abbrev S256x1x3 : Shape := ⟨3, ![256, 1, 3]⟩
abbrev S256x3 : Shape := ⟨2, ![256, 3]⟩
abbrev S256x1x2 : Shape := ⟨3, ![256, 1, 2]⟩
abbrev S256x2 : Shape := ⟨2, ![256, 2]⟩
abbrev S256x1x1 : Shape := ⟨3, ![256, 1, 1]⟩
abbrev S256x1 : Shape := ⟨2, ![256, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x64x128, .f32⟩
  | .hbm, ⟨1, _⟩ => ⟨S16384x2016, .f32⟩
  | .local _ .vmem, ⟨0, _⟩ => ⟨S256x64x128, .f32⟩
  | .local _ .vmem, ⟨1, _⟩ => ⟨S256x64x128, .f32⟩
  | .local _ .vmem, ⟨2, _⟩ => ⟨S256x2016, .f32⟩
  | .local _ .vmem, ⟨3, _⟩ => ⟨S256x2016, .f32⟩
  | _, _ => ⟨S16384x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2016 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x64x128_S256x64x128_0_0_0 : ∀ a, (![0, 0, 0] : Fin 3 → Nat) a + S256x64x128.size a ≤ S256x64x128.size a
  h_S256x64x128 : 0 < S256x64x128.numel
  bitsLt_bf16_f32 : FTy.bits .bf16 < FTy.bits .f32
  slices_S256x64x64_o0_0_1_S256x1x63 : S256x64x64.Slices ![0, 0, 1] S256x1x63
  shapeCasts_S256x1x63_S256x63 : S256x1x63.ShapeCasts S256x63
  slices_S256x64x64_o0_1_2_S256x1x62 : S256x64x64.Slices ![0, 1, 2] S256x1x62
  shapeCasts_S256x1x62_S256x62 : S256x1x62.ShapeCasts S256x62
  slices_S256x64x64_o0_2_3_S256x1x61 : S256x64x64.Slices ![0, 2, 3] S256x1x61
  shapeCasts_S256x1x61_S256x61 : S256x1x61.ShapeCasts S256x61
  slices_S256x64x64_o0_3_4_S256x1x60 : S256x64x64.Slices ![0, 3, 4] S256x1x60
  shapeCasts_S256x1x60_S256x60 : S256x1x60.ShapeCasts S256x60
  slices_S256x64x64_o0_4_5_S256x1x59 : S256x64x64.Slices ![0, 4, 5] S256x1x59
  shapeCasts_S256x1x59_S256x59 : S256x1x59.ShapeCasts S256x59
  slices_S256x64x64_o0_5_6_S256x1x58 : S256x64x64.Slices ![0, 5, 6] S256x1x58
  shapeCasts_S256x1x58_S256x58 : S256x1x58.ShapeCasts S256x58
  slices_S256x64x64_o0_6_7_S256x1x57 : S256x64x64.Slices ![0, 6, 7] S256x1x57
  shapeCasts_S256x1x57_S256x57 : S256x1x57.ShapeCasts S256x57
  slices_S256x64x64_o0_7_8_S256x1x56 : S256x64x64.Slices ![0, 7, 8] S256x1x56
  shapeCasts_S256x1x56_S256x56 : S256x1x56.ShapeCasts S256x56
  slices_S256x64x64_o0_8_9_S256x1x55 : S256x64x64.Slices ![0, 8, 9] S256x1x55
  shapeCasts_S256x1x55_S256x55 : S256x1x55.ShapeCasts S256x55
  slices_S256x64x64_o0_9_10_S256x1x54 : S256x64x64.Slices ![0, 9, 10] S256x1x54
  shapeCasts_S256x1x54_S256x54 : S256x1x54.ShapeCasts S256x54
  slices_S256x64x64_o0_10_11_S256x1x53 : S256x64x64.Slices ![0, 10, 11] S256x1x53
  shapeCasts_S256x1x53_S256x53 : S256x1x53.ShapeCasts S256x53
  slices_S256x64x64_o0_11_12_S256x1x52 : S256x64x64.Slices ![0, 11, 12] S256x1x52
  shapeCasts_S256x1x52_S256x52 : S256x1x52.ShapeCasts S256x52
  slices_S256x64x64_o0_12_13_S256x1x51 : S256x64x64.Slices ![0, 12, 13] S256x1x51
  shapeCasts_S256x1x51_S256x51 : S256x1x51.ShapeCasts S256x51
  slices_S256x64x64_o0_13_14_S256x1x50 : S256x64x64.Slices ![0, 13, 14] S256x1x50
  shapeCasts_S256x1x50_S256x50 : S256x1x50.ShapeCasts S256x50
  slices_S256x64x64_o0_14_15_S256x1x49 : S256x64x64.Slices ![0, 14, 15] S256x1x49
  shapeCasts_S256x1x49_S256x49 : S256x1x49.ShapeCasts S256x49
  slices_S256x64x64_o0_15_16_S256x1x48 : S256x64x64.Slices ![0, 15, 16] S256x1x48
  shapeCasts_S256x1x48_S256x48 : S256x1x48.ShapeCasts S256x48
  slices_S256x64x64_o0_16_17_S256x1x47 : S256x64x64.Slices ![0, 16, 17] S256x1x47
  shapeCasts_S256x1x47_S256x47 : S256x1x47.ShapeCasts S256x47
  slices_S256x64x64_o0_17_18_S256x1x46 : S256x64x64.Slices ![0, 17, 18] S256x1x46
  shapeCasts_S256x1x46_S256x46 : S256x1x46.ShapeCasts S256x46
  slices_S256x64x64_o0_18_19_S256x1x45 : S256x64x64.Slices ![0, 18, 19] S256x1x45
  shapeCasts_S256x1x45_S256x45 : S256x1x45.ShapeCasts S256x45
  slices_S256x64x64_o0_19_20_S256x1x44 : S256x64x64.Slices ![0, 19, 20] S256x1x44
  shapeCasts_S256x1x44_S256x44 : S256x1x44.ShapeCasts S256x44
  slices_S256x64x64_o0_20_21_S256x1x43 : S256x64x64.Slices ![0, 20, 21] S256x1x43
  shapeCasts_S256x1x43_S256x43 : S256x1x43.ShapeCasts S256x43
  slices_S256x64x64_o0_21_22_S256x1x42 : S256x64x64.Slices ![0, 21, 22] S256x1x42
  shapeCasts_S256x1x42_S256x42 : S256x1x42.ShapeCasts S256x42
  slices_S256x64x64_o0_22_23_S256x1x41 : S256x64x64.Slices ![0, 22, 23] S256x1x41
  shapeCasts_S256x1x41_S256x41 : S256x1x41.ShapeCasts S256x41
  slices_S256x64x64_o0_23_24_S256x1x40 : S256x64x64.Slices ![0, 23, 24] S256x1x40
  shapeCasts_S256x1x40_S256x40 : S256x1x40.ShapeCasts S256x40
  slices_S256x64x64_o0_24_25_S256x1x39 : S256x64x64.Slices ![0, 24, 25] S256x1x39
  shapeCasts_S256x1x39_S256x39 : S256x1x39.ShapeCasts S256x39
  slices_S256x64x64_o0_25_26_S256x1x38 : S256x64x64.Slices ![0, 25, 26] S256x1x38
  shapeCasts_S256x1x38_S256x38 : S256x1x38.ShapeCasts S256x38
  slices_S256x64x64_o0_26_27_S256x1x37 : S256x64x64.Slices ![0, 26, 27] S256x1x37
  shapeCasts_S256x1x37_S256x37 : S256x1x37.ShapeCasts S256x37
  slices_S256x64x64_o0_27_28_S256x1x36 : S256x64x64.Slices ![0, 27, 28] S256x1x36
  shapeCasts_S256x1x36_S256x36 : S256x1x36.ShapeCasts S256x36
  slices_S256x64x64_o0_28_29_S256x1x35 : S256x64x64.Slices ![0, 28, 29] S256x1x35
  shapeCasts_S256x1x35_S256x35 : S256x1x35.ShapeCasts S256x35
  slices_S256x64x64_o0_29_30_S256x1x34 : S256x64x64.Slices ![0, 29, 30] S256x1x34
  shapeCasts_S256x1x34_S256x34 : S256x1x34.ShapeCasts S256x34
  slices_S256x64x64_o0_30_31_S256x1x33 : S256x64x64.Slices ![0, 30, 31] S256x1x33
  shapeCasts_S256x1x33_S256x33 : S256x1x33.ShapeCasts S256x33
  slices_S256x64x64_o0_31_32_S256x1x32 : S256x64x64.Slices ![0, 31, 32] S256x1x32
  shapeCasts_S256x1x32_S256x32 : S256x1x32.ShapeCasts S256x32
  slices_S256x64x64_o0_32_33_S256x1x31 : S256x64x64.Slices ![0, 32, 33] S256x1x31
  shapeCasts_S256x1x31_S256x31 : S256x1x31.ShapeCasts S256x31
  slices_S256x64x64_o0_33_34_S256x1x30 : S256x64x64.Slices ![0, 33, 34] S256x1x30
  shapeCasts_S256x1x30_S256x30 : S256x1x30.ShapeCasts S256x30
  slices_S256x64x64_o0_34_35_S256x1x29 : S256x64x64.Slices ![0, 34, 35] S256x1x29
  shapeCasts_S256x1x29_S256x29 : S256x1x29.ShapeCasts S256x29
  slices_S256x64x64_o0_35_36_S256x1x28 : S256x64x64.Slices ![0, 35, 36] S256x1x28
  shapeCasts_S256x1x28_S256x28 : S256x1x28.ShapeCasts S256x28
  slices_S256x64x64_o0_36_37_S256x1x27 : S256x64x64.Slices ![0, 36, 37] S256x1x27
  shapeCasts_S256x1x27_S256x27 : S256x1x27.ShapeCasts S256x27
  slices_S256x64x64_o0_37_38_S256x1x26 : S256x64x64.Slices ![0, 37, 38] S256x1x26
  shapeCasts_S256x1x26_S256x26 : S256x1x26.ShapeCasts S256x26
  slices_S256x64x64_o0_38_39_S256x1x25 : S256x64x64.Slices ![0, 38, 39] S256x1x25
  shapeCasts_S256x1x25_S256x25 : S256x1x25.ShapeCasts S256x25
  slices_S256x64x64_o0_39_40_S256x1x24 : S256x64x64.Slices ![0, 39, 40] S256x1x24
  shapeCasts_S256x1x24_S256x24 : S256x1x24.ShapeCasts S256x24
  slices_S256x64x64_o0_40_41_S256x1x23 : S256x64x64.Slices ![0, 40, 41] S256x1x23
  shapeCasts_S256x1x23_S256x23 : S256x1x23.ShapeCasts S256x23
  slices_S256x64x64_o0_41_42_S256x1x22 : S256x64x64.Slices ![0, 41, 42] S256x1x22
  shapeCasts_S256x1x22_S256x22 : S256x1x22.ShapeCasts S256x22
  slices_S256x64x64_o0_42_43_S256x1x21 : S256x64x64.Slices ![0, 42, 43] S256x1x21
  shapeCasts_S256x1x21_S256x21 : S256x1x21.ShapeCasts S256x21
  slices_S256x64x64_o0_43_44_S256x1x20 : S256x64x64.Slices ![0, 43, 44] S256x1x20
  shapeCasts_S256x1x20_S256x20 : S256x1x20.ShapeCasts S256x20
  slices_S256x64x64_o0_44_45_S256x1x19 : S256x64x64.Slices ![0, 44, 45] S256x1x19
  shapeCasts_S256x1x19_S256x19 : S256x1x19.ShapeCasts S256x19
  slices_S256x64x64_o0_45_46_S256x1x18 : S256x64x64.Slices ![0, 45, 46] S256x1x18
  shapeCasts_S256x1x18_S256x18 : S256x1x18.ShapeCasts S256x18
  slices_S256x64x64_o0_46_47_S256x1x17 : S256x64x64.Slices ![0, 46, 47] S256x1x17
  shapeCasts_S256x1x17_S256x17 : S256x1x17.ShapeCasts S256x17
  slices_S256x64x64_o0_47_48_S256x1x16 : S256x64x64.Slices ![0, 47, 48] S256x1x16
  shapeCasts_S256x1x16_S256x16 : S256x1x16.ShapeCasts S256x16
  slices_S256x64x64_o0_48_49_S256x1x15 : S256x64x64.Slices ![0, 48, 49] S256x1x15
  shapeCasts_S256x1x15_S256x15 : S256x1x15.ShapeCasts S256x15
  slices_S256x64x64_o0_49_50_S256x1x14 : S256x64x64.Slices ![0, 49, 50] S256x1x14
  shapeCasts_S256x1x14_S256x14 : S256x1x14.ShapeCasts S256x14
  slices_S256x64x64_o0_50_51_S256x1x13 : S256x64x64.Slices ![0, 50, 51] S256x1x13
  shapeCasts_S256x1x13_S256x13 : S256x1x13.ShapeCasts S256x13
  slices_S256x64x64_o0_51_52_S256x1x12 : S256x64x64.Slices ![0, 51, 52] S256x1x12
  shapeCasts_S256x1x12_S256x12 : S256x1x12.ShapeCasts S256x12
  slices_S256x64x64_o0_52_53_S256x1x11 : S256x64x64.Slices ![0, 52, 53] S256x1x11
  shapeCasts_S256x1x11_S256x11 : S256x1x11.ShapeCasts S256x11
  slices_S256x64x64_o0_53_54_S256x1x10 : S256x64x64.Slices ![0, 53, 54] S256x1x10
  shapeCasts_S256x1x10_S256x10 : S256x1x10.ShapeCasts S256x10
  slices_S256x64x64_o0_54_55_S256x1x9 : S256x64x64.Slices ![0, 54, 55] S256x1x9
  shapeCasts_S256x1x9_S256x9 : S256x1x9.ShapeCasts S256x9
  slices_S256x64x64_o0_55_56_S256x1x8 : S256x64x64.Slices ![0, 55, 56] S256x1x8
  shapeCasts_S256x1x8_S256x8 : S256x1x8.ShapeCasts S256x8
  slices_S256x64x64_o0_56_57_S256x1x7 : S256x64x64.Slices ![0, 56, 57] S256x1x7
  shapeCasts_S256x1x7_S256x7 : S256x1x7.ShapeCasts S256x7
  slices_S256x64x64_o0_57_58_S256x1x6 : S256x64x64.Slices ![0, 57, 58] S256x1x6
  shapeCasts_S256x1x6_S256x6 : S256x1x6.ShapeCasts S256x6
  slices_S256x64x64_o0_58_59_S256x1x5 : S256x64x64.Slices ![0, 58, 59] S256x1x5
  shapeCasts_S256x1x5_S256x5 : S256x1x5.ShapeCasts S256x5
  slices_S256x64x64_o0_59_60_S256x1x4 : S256x64x64.Slices ![0, 59, 60] S256x1x4
  shapeCasts_S256x1x4_S256x4 : S256x1x4.ShapeCasts S256x4
  slices_S256x64x64_o0_60_61_S256x1x3 : S256x64x64.Slices ![0, 60, 61] S256x1x3
  shapeCasts_S256x1x3_S256x3 : S256x1x3.ShapeCasts S256x3
  slices_S256x64x64_o0_61_62_S256x1x2 : S256x64x64.Slices ![0, 61, 62] S256x1x2
  shapeCasts_S256x1x2_S256x2 : S256x1x2.ShapeCasts S256x2
  slices_S256x64x64_o0_62_63_S256x1x1 : S256x64x64.Slices ![0, 62, 63] S256x1x1
  shapeCasts_S256x1x1_S256x1 : S256x1x1.ShapeCasts S256x1
  concatenates_S256x63_S256x62_S256x61_S256x60_S256x59_S256x58_S256x57_S256x56_S256x55_S256x54_S256x53_S256x52_S256x51_S256x50_S256x49_S256x48_S256x47_S256x46_S256x45_S256x44_S256x43_S256x42_S256x41_S256x40_S256x39_S256x38_S256x37_S256x36_S256x35_S256x34_S256x33_S256x32_S256x31_S256x30_S256x29_S256x28_S256x27_S256x26_S256x25_S256x24_S256x23_S256x22_S256x21_S256x20_S256x19_S256x18_S256x17_S256x16_S256x15_S256x14_S256x13_S256x12_S256x11_S256x10_S256x9_S256x8_S256x7_S256x6_S256x5_S256x4_S256x3_S256x2_S256x1_S256x2016_d1 : Shape.Concatenates (S256x63 :: S256x62 :: S256x61 :: S256x60 :: S256x59 :: S256x58 :: S256x57 :: S256x56 :: S256x55 :: S256x54 :: S256x53 :: S256x52 :: S256x51 :: S256x50 :: S256x49 :: S256x48 :: S256x47 :: S256x46 :: S256x45 :: S256x44 :: S256x43 :: S256x42 :: S256x41 :: S256x40 :: S256x39 :: S256x38 :: S256x37 :: S256x36 :: S256x35 :: S256x34 :: S256x33 :: S256x32 :: S256x31 :: S256x30 :: S256x29 :: S256x28 :: S256x27 :: S256x26 :: S256x25 :: S256x24 :: S256x23 :: S256x22 :: S256x21 :: S256x20 :: S256x19 :: S256x18 :: S256x17 :: S256x16 :: S256x15 :: S256x14 :: S256x13 :: S256x12 :: S256x11 :: S256x10 :: S256x9 :: S256x8 :: S256x7 :: S256x6 :: S256x5 :: S256x4 :: S256x3 :: S256x2 :: S256x1 :: []) S256x2016 1
  inb_S256x2016_S256x2016_0_0 : ∀ a, (![0, 0] : Fin 2 → Nat) a + S256x2016.size a ≤ S256x2016.size a
  h_S256x2016 : 0 < S256x2016.numel
  dot_S256x64x128_S256x64x128_S256x64x64_2_2_1_1_0_0_wf : DotDims.WF S256x64x128 S256x64x128 S256x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x128.size a ≤ S16384x64x128.size a
  hwx0_0 : ∀ i : grid0.Coords, EltTy.bits .f32 = 32 ∨ (Rect.block (s := S16384x64x128) S256x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2016.size a ≤ S16384x2016.size a
  hwx0_1 : ∀ i : grid0.Coords, EltTy.bits .f32 = 32 ∨ (Rect.block (s := S16384x2016) S256x2016.size (cc0_transform_1 i) (hinb0_1 i)).WholeWords (EltTy.packing .f32)

variable [Facts₀]

def dot_S256x64x128_S256x64x128_S256x64x64_2_2_1_1_0_0 : DotDims S256x64x128 S256x64x128 S256x64x64 where
  lhsContracting := [2]
  rhsContracting := [2]
  lhsNonContracting := [1]
  rhsNonContracting := [1]
  lhsBatch := [0]
  rhsBatch := [0]
  wf := dot_S256x64x128_S256x64x128_S256x64x64_2_2_1_1_0_0_wf

abbrev win0_0 : Pipeline.Window sig grid0 :=
  Pipeline.Window.ofSpec (Memref.whole main_arg0) S256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2016.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x64x128 : Shape := ⟨3, ![16384, 64, 128]⟩
abbrev S16384x64x64 : Shape := ⟨3, ![16384, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S16384x2016 : Shape := ⟨2, ![16384, 2016]⟩

abbrev nBuf : Space → Nat
  | .hbm => 137
  | .vmem => 0
  | .smem => 0
  | _ => 0

abbrev hbmTy0_0 (i : Nat) : BufTy := match i % 128 with
  | 0 => ⟨S16384x64x128, .f32⟩
  | 1 => ⟨S16384x64x64, .f32⟩
  | 2 => ⟨S_, .f32⟩
  | 3 => ⟨S64x64, .f32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .f32⟩
  | 11 => ⟨S64x64, .f32⟩
  | 12 => ⟨S64x64, .f32⟩
  | 13 => ⟨S_, .f32⟩
  | 14 => ⟨S64x64, .f32⟩
  | 15 => ⟨S64x64, .i1⟩
  | 16 => ⟨S4096, .i1⟩
  | 17 => ⟨S4096, .i32⟩
  | 18 => ⟨S_, .i32⟩
  | 19 => ⟨S_, .i32⟩
  | 20 => ⟨S4096, .i32⟩
  | 21 => ⟨S_, .i32⟩
  | 22 => ⟨S2016, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S_, .i32⟩
  | 36 => ⟨S4096, .i32⟩
  | 37 => ⟨S2016, .i32⟩
  | 38 => ⟨S_, .i32⟩
  | 39 => ⟨S_, .i32⟩
  | 40 => ⟨S2016, .i32⟩
  | 41 => ⟨S_, .i32⟩
  | 42 => ⟨S2016, .i32⟩
  | 43 => ⟨S2016, .i32⟩
  | 44 => ⟨S2016, .i32⟩
  | 45 => ⟨S_, .i32⟩
  | 46 => ⟨S2016, .i32⟩
  | 47 => ⟨S2016, .i1⟩
  | 48 => ⟨S2016, .i32⟩
  | 49 => ⟨S2016, .i32⟩
  | 50 => ⟨S_, .i32⟩
  | 51 => ⟨S2016, .i32⟩
  | 52 => ⟨S2016, .i1⟩
  | 53 => ⟨S2016, .i1⟩
  | 54 => ⟨S_, .i32⟩
  | 55 => ⟨S2016, .i32⟩
  | 56 => ⟨S2016, .i32⟩
  | 57 => ⟨S2016, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2016, .i32⟩
  | 65 => ⟨S2016, .i32⟩
  | 66 => ⟨S_, .i32⟩
  | 67 => ⟨S2016, .i32⟩
  | 68 => ⟨S2016, .i1⟩
  | 69 => ⟨S_, .i32⟩
  | 70 => ⟨S2016, .i32⟩
  | 71 => ⟨S2016, .i1⟩
  | 72 => ⟨S_, .i32⟩
  | 73 => ⟨S_, .i1⟩
  | 74 => ⟨S2016, .i1⟩
  | 75 => ⟨S2016, .i1⟩
  | 76 => ⟨S2016, .i1⟩
  | 77 => ⟨S2016, .i32⟩
  | 78 => ⟨S2016, .i32⟩
  | 79 => ⟨S2016, .i32⟩
  | 80 => ⟨S_, .i32⟩
  | 81 => ⟨S2016, .i32⟩
  | 82 => ⟨S2016, .i32⟩
  | 83 => ⟨S2016, .i32⟩
  | 84 => ⟨S_, .i32⟩
  | 85 => ⟨S2016, .i32⟩
  | 86 => ⟨S2016, .i1⟩
  | 87 => ⟨S2016, .i32⟩
  | 88 => ⟨S2016, .i32⟩
  | 89 => ⟨S_, .i32⟩
  | 90 => ⟨S2016, .i32⟩
  | 91 => ⟨S2016, .i1⟩
  | 92 => ⟨S2016, .i1⟩
  | 93 => ⟨S_, .i32⟩
  | 94 => ⟨S2016, .i32⟩
  | 95 => ⟨S2016, .i32⟩
  | 96 => ⟨S2016, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2016, .i32⟩
  | 104 => ⟨S2016, .i32⟩
  | 105 => ⟨S_, .i32⟩
  | 106 => ⟨S2016, .i32⟩
  | 107 => ⟨S2016, .i1⟩
  | 108 => ⟨S_, .i32⟩
  | 109 => ⟨S2016, .i32⟩
  | 110 => ⟨S2016, .i1⟩
  | 111 => ⟨S_, .i32⟩
  | 112 => ⟨S_, .i1⟩
  | 113 => ⟨S2016, .i1⟩
  | 114 => ⟨S2016, .i1⟩
  | 115 => ⟨S2016, .i1⟩
  | 116 => ⟨S2016, .i32⟩
  | 117 => ⟨S2016, .i32⟩
  | 118 => ⟨S2016, .i32⟩
  | 119 => ⟨S_, .i32⟩
  | 120 => ⟨S2016, .i32⟩
  | 121 => ⟨S2016, .i1⟩
  | 122 => ⟨S_, .i32⟩
  | 123 => ⟨S2016, .i32⟩
  | 124 => ⟨S2016, .i32⟩
  | 125 => ⟨S2016, .i32⟩
  | 126 => ⟨S_, .i32⟩
  | 127 => ⟨S2016, .i32⟩
  | _ => ⟨S16384x64x128, .f32⟩

abbrev hbmTy0_1 (i : Nat) : BufTy := match i % 128 with
  | 0 => ⟨S2016, .i1⟩
  | 1 => ⟨S_, .i32⟩
  | 2 => ⟨S2016, .i32⟩
  | 3 => ⟨S2016, .i32⟩
  | 4 => ⟨S2016, .i32⟩
  | 5 => ⟨S2016x1, .i32⟩
  | 6 => ⟨S2016x1, .i32⟩
  | 7 => ⟨S2016x2, .i32⟩
  | 8 => ⟨S16384x2016, .f32⟩
  | _ => ⟨S16384x64x128, .f32⟩

abbrev hbmTy (i : Nat) : BufTy := match i / 128 with
  | 0 => hbmTy0_0 i
  | 1 => hbmTy0_1 i
  | _ => ⟨S16384x64x128, .f32⟩

abbrev bufTy : (tb : Table) → Fin (tcTables nBuf tb) → BufTy
  | .hbm, ⟨i, _⟩ => hbmTy i
  | _, _ => ⟨S16384x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  dot_S16384x64x128_S16384x64x128_S16384x64x64_2_2_1_1_0_0_wf : DotDims.WF S16384x64x128 S16384x64x128 S16384x64x64 [2] [2] [1] [1] [0] [0]
  scatter_S2016_S4096x1_S4096_n_0_0_1_wf : ScatterDims.WF S2016 S4096x1 S4096 [] [0] [0] 1
  gather_S16384x64x64_S2016x2_S16384x2016_0_12_n_n_12_1_1638411_wf : GatherDims.WF S16384x64x64 S2016x2 S16384x2016 [0] [1, 2] [] [1, 2] [] 1 ![16384, 1, 1]

variable [Facts₀]

def dot_S16384x64x128_S16384x64x128_S16384x64x64_2_2_1_1_0_0 : DotDims S16384x64x128 S16384x64x128 S16384x64x64 where
  lhsContracting := [2]
  rhsContracting := [2]
  lhsNonContracting := [1]
  rhsNonContracting := [1]
  lhsBatch := [0]
  rhsBatch := [0]
  wf := dot_S16384x64x128_S16384x64x128_S16384x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S16384x64x64_S2016x2_S16384x2016_0_12_n_n_12_1_1638411 : GatherDims S16384x64x64 S2016x2 S16384x2016 where
  offsetDims := [0]
  collapsedSliceDims := [1, 2]
  operandBatchingDims := []
  startIndicesBatchingDims := []
  startIndexMap := [1, 2]
  indexVectorDim := 1
  sliceSizes := ![16384, 1, 1]
  wf := gather_S16384x64x64_S2016x2_S16384x2016_0_12_n_n_12_1_1638411_wf

class Facts : Prop extends Facts₀ where

variable [Facts]
-- ==== Proof.KernelGram.lean ====
/-
  One block of the Gram matrix. For a block `v` of 256 batch entries, each a 64×128 matrix, the
  matrix unit's product of `v` with itself, contracting the last axis of both operands and
  batching over the first, into a zero accumulator, read at `(b, i, j)` is
  `Σ_d v(b,i,d) · v(b,j,d)`: at the exact extended reals the narrowing of the operands to
  bf16 is the identity and the accumulation is the plain sum.
-/
import proofs.«152717_j15745350107452_2_alg».proof.Proof.Gen.KernelIdeal.Skeleton
import Idealize.ShloMosaic.PureOps.Ideal.Laws
import Idealize.ShloMosaic.Lib.ValueIdx

noncomputable section

namespace Cert.KernelIdeal.GramBlock

open Cert.KernelIdeal Cert.KernelIdeal.Gen Idealize.ShloMosaic Idealize.ShloMosaic.ValueIdx

/-- The block product's dimension numbers contract one axis, of extent 128. -/
theorem contr_rank : dot_S256x64x128_S256x64x128_S256x64x64_2_2_1_1_0_0.contr.rank = 1 := rfl
theorem contr_size : dot_S256x64x128_S256x64x128_S256x64x64_2_2_1_1_0_0.contr.size ⟨0, by rw [contr_rank]; exact Nat.one_pos⟩ = 128 := rfl

/-- The Gram block at `(b, i, j)`. -/
theorem gram_apply (v : Vec Ideal S256x64x128 .f32) (b : Fin 256) (i j : Fin 64) :
    k0_pay2 (F := Ideal) v (ix3 b i j) = ∑ d : Fin 128, v (ix3 b i d) * v (ix3 b j d) := by
  unfold k0_pay2
  refine (Ideal.matmul_constant_zero_apply dot_S256x64x128_S256x64x128_S256x64x64_2_2_1_1_0_0 none _ _ (ix3 b i j)).trans ?_
  rw [← Equiv.sum_comp (contrEquiv1 dot_S256x64x128_S256x64x128_S256x64x64_2_2_1_1_0_0 128 contr_rank contr_size).symm]
  refine Finset.sum_congr rfl fun d _ => ?_
  have hk := contrEquiv1_symm_val dot_S256x64x128_S256x64x128_S256x64x64_2_2_1_1_0_0 128 contr_rank contr_size d
  generalize (contrEquiv1 dot_S256x64x128_S256x64x128_S256x64x64_2_2_1_1_0_0 128 contr_rank contr_size).symm d = k at hk
  have hl : dot_S256x64x128_S256x64x128_S256x64x64_2_2_1_1_0_0.lhsIdx (ix3 b i j) k = ix3 b i d := by
    funext a; apply Fin.ext
    match a with
    | ⟨0, _⟩ => rfl
    | ⟨1, _⟩ => rfl
    | ⟨2, _⟩ => exact hk
  have hr : dot_S256x64x128_S256x64x128_S256x64x64_2_2_1_1_0_0.rhsIdx (ix3 b i j) k = ix3 b j d := by
    funext a; apply Fin.ext
    match a with
    | ⟨0, _⟩ => rfl
    | ⟨1, _⟩ => rfl
    | ⟨2, _⟩ => exact hk
  rw [hl, hr]
  rfl

end Cert.KernelIdeal.GramBlock

end
-- ==== Proof.Pairs.lean ====
/-
  The strict upper triangle of a 64×64 matrix, packed row by row.
  Row `k` contributes its `63 - k` entries right of the diagonal, so `pre k = Σ_{k' < k} (63 - k')
  = k (127 - k) / 2` entries come before row `k`, and packed position `p` lies in the row `rowOf p`
  with `pre (rowOf p) ≤ p < pre (rowOf p + 1)`, at column `rowOf p + 1 + (p - pre (rowOf p))`.
  `flatOf p = 64 · rowOf p + colOf p` is that entry's position in the matrix flattened row-major:
  `flatOf` enumerates, in increasing order, exactly the positions `n` with `n / 64 < n % 64`.
-/
import Mathlib.Tactic
import Mathlib.Data.Finset.Card
import Mathlib.Algebra.BigOperators.Group.Finset.Basic
import Mathlib.Algebra.Order.BigOperators.Group.Finset

namespace Cert.Tri

/-- Number of packed entries before row `k`. -/
def pre (k : ℕ) : ℕ := k * (127 - k) / 2

/-- Row of packed position `p`: how many rows end at or before `p`. -/
def rowOf (p : ℕ) : ℕ := ((List.range 63).filter (fun k => pre (k + 1) ≤ p)).length

/-- Column of packed position `p`. -/
def colOf (p : ℕ) : ℕ := rowOf p + 1 + (p - pre (rowOf p))

/-- Position of packed entry `p` in the 64×64 matrix flattened row-major. -/
def flatOf (p : ℕ) : ℕ := 64 * rowOf p + colOf p

/-- The 63 row lengths, checked one by one. -/
private theorem pre_succ_fin : ∀ k : Fin 63, pre (k.val + 1) = pre k.val + (63 - k.val) := by
  decide +kernel

theorem pre_succ {k : ℕ} (hk : k < 63) : pre (k + 1) = pre k + (63 - k) :=
  pre_succ_fin ⟨k, hk⟩

/-- `pre` is monotone on `0 … 63`: each step adds the nonnegative row length `63 - k`. -/
theorem pre_mono {a b : ℕ} (hab : a ≤ b) (hb : b ≤ 63) : pre a ≤ pre b := by
  induction b, hab using Nat.le_induction with
  | base => exact le_rfl
  | succ b _ ih =>
    have h1 := pre_succ (k := b) (by omega)
    have h2 := ih (by omega)
    omega

theorem pre_zero : pre 0 = 0 := by decide

theorem pre_last : pre 63 = 2016 := by decide

/-- Among `0 … 62`, exactly `k` numbers lie below `k`, for `k ≤ 63`. -/
private theorem length_filter_lt_fin :
    ∀ k : Fin 64, ((List.range 63).filter (fun k' => decide (k' < k.val))).length = k.val := by
  decide +kernel

/-- The row is determined by the two bounds: by monotonicity of `pre` the rows that end at or before
    `p` are exactly the rows before `k`. -/
theorem rowOf_eq {p k : ℕ} (hk : k < 63) (h1 : pre k ≤ p) (h2 : p < pre (k + 1)) : rowOf p = k := by
  have hcongr : (List.range 63).filter (fun k' => decide (pre (k' + 1) ≤ p))
      = (List.range 63).filter (fun k' => decide (k' < k)) := by
    apply List.filter_congr
    intro k' hk'
    rw [List.mem_range] at hk'
    rw [decide_eq_decide]
    constructor
    · intro h
      by_contra hlt
      have := pre_mono (a := k + 1) (b := k' + 1) (by omega) (by omega)
      omega
    · intro hlt
      have := pre_mono (a := k' + 1) (b := k) (by omega) (by omega)
      omega
  unfold rowOf
  rw [hcongr]
  exact length_filter_lt_fin ⟨k, by omega⟩

/-- A position below `pre n` lies in one of the rows before `n`. -/
private theorem exists_row {p : ℕ} :
    ∀ n, n ≤ 63 → p < pre n → ∃ k, k < n ∧ pre k ≤ p ∧ p < pre (k + 1)
  | 0, _, h => by rw [pre_zero] at h; omega
  | n + 1, hn, h => by
    by_cases hlt : p < pre n
    · obtain ⟨k, hk, h1, h2⟩ := exists_row n (by omega) hlt
      exact ⟨k, by omega, h1, h2⟩
    · exact ⟨n, by omega, by omega, h⟩

/-- For every packed position, the row found by counting is a real row and brackets the position. -/
private theorem rowOf_spec {p : ℕ} (hp : p < 2016) :
    rowOf p < 63 ∧ pre (rowOf p) ≤ p ∧ p < pre (rowOf p + 1) := by
  obtain ⟨k, hk, h1, h2⟩ := exists_row 63 le_rfl (by rw [pre_last]; exact hp)
  rw [rowOf_eq hk h1 h2]
  exact ⟨hk, h1, h2⟩

theorem rowOf_lt {p : ℕ} (hp : p < 2016) : rowOf p < 63 :=
  (rowOf_spec hp).1

theorem pre_rowOf_le {p : ℕ} (hp : p < 2016) : pre (rowOf p) ≤ p :=
  (rowOf_spec hp).2.1

theorem lt_pre_succ {p : ℕ} (hp : p < 2016) : p < pre (rowOf p + 1) :=
  (rowOf_spec hp).2.2

theorem colOf_lt {p : ℕ} (hp : p < 2016) : colOf p < 64 := by
  have hr := rowOf_lt hp
  have hhi := lt_pre_succ hp
  have hs := pre_succ hr
  unfold colOf
  omega

theorem rowOf_lt_colOf (p : ℕ) : rowOf p < colOf p := by
  unfold colOf; omega

theorem flatOf_lt {p : ℕ} (hp : p < 2016) : flatOf p < 4096 := by
  have hr := rowOf_lt hp
  have hc := colOf_lt hp
  unfold flatOf
  omega

theorem flatOf_div {p : ℕ} (hp : p < 2016) : flatOf p / 64 = rowOf p := by
  have hc := colOf_lt hp
  unfold flatOf
  omega

theorem flatOf_mod {p : ℕ} (hp : p < 2016) : flatOf p % 64 = colOf p := by
  have hc := colOf_lt hp
  unfold flatOf
  omega

/-- A later packed position lies in the same row or a later one. -/
theorem rowOf_mono {p q : ℕ} (hpq : p ≤ q) (hq : q < 2016) : rowOf p ≤ rowOf q := by
  have hp : p < 2016 := by omega
  by_contra hlt
  have hrp := rowOf_lt hp
  have := pre_mono (a := rowOf q + 1) (b := rowOf p) (by omega) (by omega)
  have h1 := pre_rowOf_le hp
  have h2 := lt_pre_succ hq
  omega

theorem flatOf_strictMono {p q : ℕ} (hpq : p < q) (hq : q < 2016) : flatOf p < flatOf q := by
  have hp : p < 2016 := by omega
  have hrr := rowOf_mono hpq.le hq
  have hcp := colOf_lt hp
  have hlo := pre_rowOf_le hp
  rcases Nat.lt_or_eq_of_le hrr with h | h
  · -- a strictly later row: the whole of row `rowOf p` comes first
    unfold flatOf
    omega
  · -- the same row: the later position is further right
    unfold flatOf colOf
    rw [h] at hlo ⊢
    omega

/-- The marked positions of the flattened matrix are exactly the values of `flatOf`. -/
theorem upper_iff_flatOf {n : ℕ} (hn : n < 4096) : n / 64 < n % 64 ↔ ∃ p, p < 2016 ∧ flatOf p = n := by
  constructor
  · intro h
    -- entry `(i, j)` with `i < j` is packed at `pre i + (j - i - 1)`
    have hj : n % 64 < 64 := Nat.mod_lt _ (by norm_num)
    have hi : n / 64 < 63 := by omega
    have hs := pre_succ hi
    have hm := pre_mono (a := n / 64 + 1) (b := 63) (by omega) le_rfl
    rw [pre_last] at hm
    refine ⟨pre (n / 64) + (n % 64 - n / 64 - 1), by omega, ?_⟩
    have hrow : rowOf (pre (n / 64) + (n % 64 - n / 64 - 1)) = n / 64 :=
      rowOf_eq hi (by omega) (by omega)
    unfold flatOf colOf
    rw [hrow]
    omega
  · rintro ⟨p, hp, rfl⟩
    rw [flatOf_div hp, flatOf_mod hp]
    exact rowOf_lt_colOf p

/-- Summing a histogram up to `k` counts the entries whose value is at most `k`. -/
theorem sum_card_eq (cnt : ℕ → ℕ) (N k : ℕ) :
    ∑ k' ∈ Finset.range (k + 1), ((Finset.range N).filter (fun n => cnt n = k')).card
      = ((Finset.range N).filter (fun n => cnt n ≤ k)).card := by
  induction k with
  | zero =>
    simp
  | succ k ih =>
    rw [Finset.sum_range_succ, ih, ← Finset.card_union_of_disjoint]
    · congr 1
      ext n
      simp only [Finset.mem_union, Finset.mem_filter, Finset.mem_range]
      omega
    · rw [Finset.disjoint_left]
      intro n h1 h2
      simp only [Finset.mem_filter] at h1 h2
      omega

/-- Running count of marked positions up to and including `n`. -/
def cnt (n : ℕ) : ℕ := ((Finset.range (n + 1)).filter (fun q => q / 64 < q % 64)).card

theorem cnt_le (n : ℕ) : cnt n ≤ n + 1 := by
  unfold cnt; exact (Finset.card_filter_le _ _).trans (by simp)

/-- The running count at `n` is the number of packed positions whose entry lies at or before `n`. -/
theorem cnt_eq_card {n : ℕ} (hn : n < 4096) :
    cnt n = ((Finset.range 2016).filter (fun p => flatOf p ≤ n)).card := by
  have himg : (Finset.range (n + 1)).filter (fun q => q / 64 < q % 64)
      = ((Finset.range 2016).filter (fun p => flatOf p ≤ n)).image flatOf := by
    ext q
    simp only [Finset.mem_filter, Finset.mem_range, Finset.mem_image]
    constructor
    · rintro ⟨hq, hu⟩
      obtain ⟨p, hp, rfl⟩ := (upper_iff_flatOf (n := q) (by omega)).1 hu
      exact ⟨p, ⟨hp, by omega⟩, rfl⟩
    · rintro ⟨p, ⟨hp, hle⟩, rfl⟩
      exact ⟨by omega, (upper_iff_flatOf (flatOf_lt hp)).2 ⟨p, hp, rfl⟩⟩
  unfold cnt
  rw [himg, Finset.card_image_of_injOn]
  intro a ha b hb hab
  simp only [Finset.coe_filter, Finset.mem_range, Set.mem_setOf_eq] at ha hb
  rcases Nat.lt_trichotomy a b with h | h | h
  · have := flatOf_strictMono h hb.1
    omega
  · exact h
  · have := flatOf_strictMono h ha.1
    omega

/-- The running count stays at most `k` exactly before the k-th marked position. -/
theorem cnt_le_iff {n k : ℕ} (hn : n < 4096) (hk : k < 2016) : cnt n ≤ k ↔ n < flatOf k := by
  rw [cnt_eq_card hn]
  constructor
  · intro h
    by_contra hle
    -- the packed positions `0 … k` all lie at or before `n`: that is `k + 1` of them
    have hsub : Finset.range (k + 1) ⊆ (Finset.range 2016).filter (fun p => flatOf p ≤ n) := by
      intro p hp
      simp only [Finset.mem_range] at hp
      simp only [Finset.mem_filter, Finset.mem_range]
      refine ⟨by omega, ?_⟩
      rcases Nat.lt_or_eq_of_le (Nat.lt_succ_iff.1 hp) with h' | h'
      · have := flatOf_strictMono h' hk
        omega
      · rw [h']; omega
    have := Finset.card_le_card hsub
    rw [Finset.card_range] at this
    omega
  · intro h
    -- a packed position at or before `n` comes before `k`
    have hsub : (Finset.range 2016).filter (fun p => flatOf p ≤ n) ⊆ Finset.range k := by
      intro p hp
      simp only [Finset.mem_filter, Finset.mem_range] at hp
      simp only [Finset.mem_range]
      by_contra hkp
      rcases Nat.lt_or_eq_of_le (Nat.le_of_not_lt hkp) with h' | h'
      · have := flatOf_strictMono h' hp.1
        omega
      · rw [← h'] at hp; omega
    have := Finset.card_le_card hsub
    rw [Finset.card_range] at this
    exact this

/-- The positions whose running count of marked positions is at most `k` are exactly those before the
    k-th marked position, so there are `flatOf k` of them. -/
theorem card_cnt_le {k : ℕ} (hk : k < 2016) :
    ((Finset.range 4096).filter (fun n => cnt n ≤ k)).card = flatOf k := by
  have hlt := flatOf_lt hk
  have : (Finset.range 4096).filter (fun n => cnt n ≤ k) = Finset.range (flatOf k) := by
    ext n
    simp only [Finset.mem_filter, Finset.mem_range]
    constructor
    · rintro ⟨hn, hc⟩
      exact (cnt_le_iff hn hk).1 hc
    · intro hn
      have hn' : n < 4096 := by omega
      exact ⟨hn', (cnt_le_iff hn' hk).2 hn⟩
  rw [this, Finset.card_range]

end Cert.Tri
-- ==== Proof.Spec.lean ====
/-
  The specification both programs meet. For `x : [16384, 64, 128]` the result at `(b, p)`,
  `p < 2016`, is the dot product of rows `rowOf p` and `colOf p` of batch entry `b`:
  `Σ_d x(b, rowOf p, d) · x(b, colOf p, d)`, where `(rowOf p, colOf p)` is the p-th pair
  `i < j` of `{0..63}` in row-major order.
-/
import Idealize.ShloMosaic.PureOps.Ideal
import Idealize.ShloMosaic.Lib.ValueIdx
import proofs.«152717_j15745350107452_2_alg».proof.Proof.Pairs

noncomputable section

open scoped BigOperators

namespace Cert.Spec

open Idealize.ShloMosaic Idealize.ShloMosaic.ValueIdx

/-- Row of the p-th pair, as a row number of the 64×128 matrix. -/
def rowF (p : Fin 2016) : Fin 64 := ⟨Cert.Tri.rowOf p.val, by have := Cert.Tri.rowOf_lt p.isLt; omega⟩

/-- Column of the p-th pair, as a row number of the 64×128 matrix. -/
def colF (p : Fin 2016) : Fin 64 := ⟨Cert.Tri.colOf p.val, Cert.Tri.colOf_lt p.isLt⟩

/-- The dot product of the two rows the p-th pair names, in batch entry `b`. -/
def pairDot (x : (⟨3, ![16384, 64, 128]⟩ : Shape).Idx → EReal) (b : Fin 16384) (p : Fin 2016) : EReal :=
  ∑ d : Fin 128, x (ix3 b (rowF p) d) * x (ix3 b (colF p) d)

/-- The whole result array. -/
def G (x : (⟨3, ![16384, 64, 128]⟩ : Shape).Idx → EReal) : (⟨2, ![16384, 2016]⟩ : Shape).Idx → EReal :=
  fun o => pairDot x (o 0) (o 1)

theorem G_apply (x : (⟨3, ![16384, 64, 128]⟩ : Shape).Idx → EReal) (b : Fin 16384) (p : Fin 2016) :
    G x (ix2 b p) = pairDot x b p := rfl

end Cert.Spec

end
-- ==== Proof.LibMiddleUnit.lean ====
/-
  An `[a, 1, b]` array viewed as `[a, b]` reads `(i, j)` at `(i, u, j)`, `u` the unit coordinate, for any extents: the
  row-major position of `(i, u, j)` in `[a, 1, b]` is `(i · 1 + 0) · b + j = i · b + j`, that of `(i, j)` in `[a, b]`.
-/
import Idealize.ShloMosaic.Lib.ValueIdx
import Idealize.ShloMosaic.Lib.Pipeline.Value

noncomputable section

namespace Cert.Lib.MiddleUnit

open Idealize.ShloMosaic Idealize.ShloMosaic.ValueIdx

variable {α : Type}

/-- An `[a, 1, b]` array viewed as `[a, b]` reads `(i, j)` at `(i, u, j)`. -/
theorem shapeCast_a1b_ab_apply {a b : ℕ} (v : (⟨3, ![a, 1, b]⟩ : Shape).Idx → α)
    (h : (⟨3, ![a, 1, b]⟩ : Shape).ShapeCasts ⟨2, ![a, b]⟩) (i : Fin a) (u : Fin 1) (j : Fin b) :
    shapeCast ⟨2, ![a, b]⟩ v h (ix2 i j) = v (ix3 i u j) :=
  shapeCast_apply v h _ _ (by
    have hu : u.val = 0 := by omega
    rw [Shape.rowMajor_val_three, Shape.rowMajor_val_two]
    show (i.val * 1 + u.val) * b + j.val = i.val * b + j.val
    rw [hu, Nat.mul_one, Nat.add_zero])

end Cert.Lib.MiddleUnit

end
-- ==== Proof.KernelPack.lean ====
/-
  The kernel's packed block. The body cuts, from the 256×64×64 Gram block `g`, for each row
  `k = 0 … 62` the entries right of the diagonal, `g(·, k, k+1 … 63)`, as a `[256, 63 - k]`
  array, and joins the 63 arrays side by side into `[256, 2016]`. Column `p` of the joined
  array falls in the piece of row `k = rowOf p`, `pre k` columns in, so it reads
  `g(b, rowOf p, colOf p)`.
-/
import proofs.«152717_j15745350107452_2_alg».proof.Proof.Gen.KernelIdeal.Skeleton
import proofs.«152717_j15745350107452_2_alg».proof.Proof.Spec
import proofs.«152717_j15745350107452_2_alg».proof.Proof.LibMiddleUnit
import Idealize.ShloMosaic.Lib.Pipeline.Value
import Idealize.ShloMosaic.Lib.ValueIdx

noncomputable section

namespace Cert.KernelIdeal.Pack

open Cert.KernelIdeal Cert.KernelIdeal.Gen Idealize.ShloMosaic Idealize.ShloMosaic.ValueIdx

variable {F : FTy → Type} [FloatOps F]

/-- Row `k`'s cut `[0, k, k+1]` of extents `[256, 1, 63 - k]` lies inside the block. -/
theorem slicesRow : ∀ k : Fin 63, S256x64x64.Slices ![0, k.val, k.val + 1] ⟨3, ![256, 1, 63 - k.val]⟩ := by decide

/-- `[256, 1, n]` and `[256, n]` have the same number of entries. -/
theorem castsRow : ∀ k : Fin 63, (⟨3, ![256, 1, 63 - k.val]⟩ : Shape).ShapeCasts ⟨2, ![256, 63 - k.val]⟩ := by decide

/-- Row `k` of the block right of the diagonal, as a `[256, 63 - k]` array with its shape. -/
def rowPiece {α : Type} (g : S256x64x64.Idx → α) (k : Fin 63) : (s : Shape) × (s.Idx → α) :=
  ⟨⟨2, ![256, 63 - k.val]⟩, shapeCast ⟨2, ![256, 63 - k.val]⟩
    (extractStridedSlice ⟨3, ![256, 1, 63 - k.val]⟩ ![0, k.val, k.val + 1] g (slicesRow k)) (castsRow k)⟩

/-- The 63 pieces, in row order. -/
def rowPieces {α : Type} (g : S256x64x64.Idx → α) : List ((s : Shape) × (s.Idx → α)) :=
  (List.finRange 63).map (rowPiece g)

/-- The pieces' shapes do not depend on the block. -/
theorem shapes_eq {α : Type} (g : S256x64x64.Idx → α) :
    (rowPieces g).map (·.1) = (List.finRange 63).map fun k => (⟨2, ![256, 63 - k.val]⟩ : Shape) := by
  unfold rowPieces
  rw [List.map_map]
  rfl

/-- The pieces' widths: row `k` has `63 - k` columns. -/
theorem widths_eq {α : Type} (g : S256x64x64.Idx → α) :
    (((rowPieces g).map (·.1)).map fun s => if h : s.rank = S256x2016.rank then s.size ((1 : Fin S256x2016.rank).cast h.symm) else 0)
      = (List.finRange 63).map fun k => 63 - k.val := by
  rw [shapes_eq, List.map_map]
  rfl

/-- The widths of the first `k` rows add up to `pre k`. -/
theorem widths_take_sum : ∀ k : Fin 64, (((List.finRange 63).map fun i => 63 - i.val).take k.val).sum = Cert.Tri.pre k.val := by
  decide

/-- The 63 pieces tile the 2016 columns. -/
theorem concatsRows {α : Type} (g : S256x64x64.Idx → α) : Shape.Concatenates ((rowPieces g).map (·.1)) S256x2016 1 := by
  rw [shapes_eq]
  decide

/-- The printed packed value is the 63 pieces joined along the columns. -/
theorem packed_eq (v : Vec F S256x64x128 .f32) :
    k0_pay1 (k0_pay2 v) (k0_pay3 v) (k0_pay4 v) (k0_pay5 v) (k0_pay6 v) (k0_pay7 v) (k0_pay8 v) (k0_pay9 v) (k0_pay10 v) (k0_pay11 v) (k0_pay12 v) (k0_pay13 v) (k0_pay14 v) (k0_pay15 v) (k0_pay16 v) (k0_pay17 v) (k0_pay18 v) (k0_pay19 v) (k0_pay20 v) (k0_pay21 v) (k0_pay22 v) (k0_pay23 v) (k0_pay24 v) (k0_pay25 v) (k0_pay26 v) (k0_pay27 v) (k0_pay28 v) (k0_pay29 (k0_pay2 v)) (k0_pay30 (k0_pay2 v)) (k0_pay31 (k0_pay2 v)) (k0_pay32 (k0_pay2 v)) (k0_pay33 (k0_pay2 v)) (k0_pay34 (k0_pay2 v)) (k0_pay35 (k0_pay2 v)) (k0_pay36 (k0_pay2 v)) (k0_pay37 (k0_pay2 v)) (k0_pay38 (k0_pay2 v)) (k0_pay39 (k0_pay2 v)) (k0_pay40 (k0_pay2 v)) (k0_pay41 (k0_pay2 v)) (k0_pay42 (k0_pay2 v)) (k0_pay43 (k0_pay2 v)) (k0_pay44 (k0_pay2 v)) (k0_pay45 (k0_pay2 v)) (k0_pay46 (k0_pay2 v)) (k0_pay47 (k0_pay2 v)) (k0_pay48 (k0_pay2 v)) (k0_pay49 (k0_pay2 v)) (k0_pay50 (k0_pay2 v)) (k0_pay51 (k0_pay2 v)) (k0_pay52 (k0_pay2 v)) (k0_pay53 (k0_pay2 v)) (k0_pay54 (k0_pay2 v)) (k0_pay55 (k0_pay2 v)) (k0_pay56 (k0_pay2 v)) (k0_pay57 (k0_pay2 v)) (k0_pay58 (k0_pay2 v))
      = concatenate S256x2016 1 (rowPieces (k0_pay2 v)) (concatsRows _) := by
  rfl

/-- One piece read at `(b, q)`: the block at row `k`, column `k + 1 + q`. -/
theorem rowPiece_apply {α : Type} (g : S256x64x64.Idx → α) (k : Fin 63) (b : Fin 256) (q : Fin (63 - k.val))
    (i : Fin 64) (j : Fin 64) (hi : i.val = k.val) (hj : j.val = k.val + 1 + q.val) :
    (rowPiece g k).2 (ix2 b q) = g (ix3 b i j) := by
  dsimp only [rowPiece]
  rw [Cert.Lib.MiddleUnit.shapeCast_a1b_ab_apply _ (castsRow k) b (0 : Fin 1) q]
  refine extractStridedSlice_apply _ g (slicesRow k) _ (ix3 b i j) fun a => ?_
  match a with
  | ⟨0, _⟩ => show b.val = 0 + b.val; omega
  | ⟨1, _⟩ => show i.val = k.val + 0; omega
  | ⟨2, _⟩ => show j.val = k.val + 1 + q.val; exact hj

/-- The joined array at column `p`: the block at the p-th pair. -/
theorem packed_apply {α : Type} (g : S256x64x64.Idx → α) (b : Fin 256) (p : Fin 2016) :
    concatenate S256x2016 1 (rowPieces g) (concatsRows g) (ix2 b p) = g (ix3 b (Cert.Spec.rowF p) (Cert.Spec.colF p)) := by
  have hk : Cert.Tri.rowOf p.val < 63 := Cert.Tri.rowOf_lt p.isLt
  have h1 : Cert.Tri.pre (Cert.Tri.rowOf p.val) ≤ p.val := Cert.Tri.pre_rowOf_le p.isLt
  have h2 : p.val < Cert.Tri.pre (Cert.Tri.rowOf p.val + 1) := Cert.Tri.lt_pre_succ p.isLt
  have h3 := Cert.Tri.pre_succ hk
  have hq : p.val - Cert.Tri.pre (Cert.Tri.rowOf p.val) < 63 - Cert.Tri.rowOf p.val := by omega
  have hlen : (rowPieces g).length = 63 := by simp [rowPieces]
  have hxk : (rowPieces g)[Cert.Tri.rowOf p.val]'(by rw [hlen]; exact hk) = rowPiece g ⟨Cert.Tri.rowOf p.val, hk⟩ := by
    simp [rowPieces]
  have hpre : (List.map (fun s : Shape => if h : s.rank = S256x2016.rank then s.size ((1 : Fin S256x2016.rank).cast h.symm) else 0)
      (List.map (·.1) ((rowPieces g).take (Cert.Tri.rowOf p.val)))).sum = Cert.Tri.pre (Cert.Tri.rowOf p.val) := by
    rw [List.map_take, List.map_take, widths_eq]
    exact widths_take_sum ⟨Cert.Tri.rowOf p.val, by omega⟩
  refine (concatenate_apply_piece (1 : Fin S256x2016.rank) (rowPieces g) (concatsRows g) (ix2 b p)
    (Cert.Tri.rowOf p.val) (by rw [hlen]; exact hk) _ _ hxk rfl (Cert.Tri.pre (Cert.Tri.rowOf p.val)) hpre
    (ix2 b (⟨p.val - Cert.Tri.pre (Cert.Tri.rowOf p.val), hq⟩ : Fin (63 - Cert.Tri.rowOf p.val))) (fun a ha => ?_) ?_).trans ?_
  · match a with
    | ⟨0, _⟩ => rfl
    | ⟨1, _⟩ => exact absurd rfl ha
  · show Cert.Tri.pre (Cert.Tri.rowOf p.val) + (p.val - Cert.Tri.pre (Cert.Tri.rowOf p.val)) = p.val
    omega
  · exact rowPiece_apply g ⟨Cert.Tri.rowOf p.val, hk⟩ b _ _ _ rfl (by
      show Cert.Tri.colOf p.val = Cert.Tri.rowOf p.val + 1 + (p.val - Cert.Tri.pre (Cert.Tri.rowOf p.val))
      rfl)

end Cert.KernelIdeal.Pack

end
-- ==== Proof.KernelValue.lean ====
/-
  The kernel's result array. Grid point `t` (of 64) loads batch rows `256 t … 256 t + 255` of
  `x`, forms their Gram block, packs its strict upper triangle and writes it back as rows
  `256 t … 256 t + 255` of the result. Entry `(b, p)` of what it writes is therefore
  `Σ_d x(256 t + b, rowOf p, d) · x(256 t + b, colOf p, d)`: block `t` of the specification
  `Spec.G x`. The 64 row blocks cover the `[16384, 2016]` array, so the array ends at `Spec.G x`.
-/
import proofs.«152717_j15745350107452_2_alg».proof.Proof.Gen.KernelIdeal.Value
import proofs.«152717_j15745350107452_2_alg».proof.Proof.KernelGram
import proofs.«152717_j15745350107452_2_alg».proof.Proof.KernelPack
import proofs.«152717_j15745350107452_2_alg».proof.Proof.Spec

noncomputable section

namespace Cert.KernelIdeal.PackedValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, entry by entry, from the loaded block `v`. -/
theorem out_apply (v : Vec Ideal S256x64x128 .f32) (b : Fin 256) (p : Fin 2016) :
    out0_1 (F := Ideal) v (ix2 b p)
      = ∑ d : Fin 128, v (ix3 b (Cert.Spec.rowF p) d) * v (ix3 b (Cert.Spec.colF p) d) := by
  unfold out0_1
  rw [View.canon_unit_zero hz2]
  simp only [View.ld_unit_zero (S := S256x64x128) hz3]
  rw [Cert.KernelIdeal.Pack.packed_eq, Cert.KernelIdeal.Pack.packed_apply, Cert.KernelIdeal.GramBlock.gram_apply]

/-- The printed index maps, decided over the 64 grid points: both windows move along the batch axis
    together, one block per point, and stay at block 0 on the other axes. -/
theorem idx_facts : ∀ t : Fin cfg0.N, win0_0.index t (0 : Fin 3) = win0_1.index t (0 : Fin 2)
    ∧ win0_0.index t (1 : Fin 3) = 0 ∧ win0_0.index t (2 : Fin 3) = 0
    ∧ win0_1.index t (1 : Fin 2) = 0 ∧ win0_1.index t (0 : Fin 2) ≤ 63 :=
  (by decide +kernel : ∀ t : Fin grid0.N, _)

/-- Every block of rows is some point's. -/
theorem idx_onto : ∀ q : Fin 64, ∃ t : Fin cfg0.N, win0_1.index t = ![q.val, 0] :=
  (by decide +kernel : ∀ q : Fin 64, ∃ t : Fin grid0.N, win0_1.index t = ![q.val, 0])

/-- WHAT POINT `t` WRITES BACK is block `t` of the specification of the argument array. -/
theorem flushed_eq (c : Dev nD) (t : Fin cfg0.N) :
    (dats m 0 c).flushed 1 t = ((cfg0.win 1).blk t).view.read (Elt Ideal) (Cert.Spec.G (V m c main_arg0)) := by
  rw [Cert.KernelIdeal.Value.flushed1]
  obtain ⟨e0, e1, e2, e3, e4⟩ := idx_facts t
  funext j
  obtain ⟨b, p, rfl⟩ : ∃ (b : Fin 256) (p : Fin 2016), j = ix2 b p := ⟨j 0, j 1, eq_ix2 j⟩
  show out0_1 (iblk m c 0 t) (ix2 b p) = Cert.Spec.G (V m c main_arg0) (((cfg0.win 1).blk t).view.emb (ix2 b p))
  refine (out_apply (iblk m c 0 t) b p).trans ?_
  have hB : win0_1.index t (0 : Fin 2) * 256 + b.val < 16384 := by have := b.isLt; omega
  have hG : Cert.Spec.G (V m c main_arg0) (((cfg0.win 1).blk t).view.emb (ix2 b p))
      = Cert.Spec.pairDot (V m c main_arg0) ⟨win0_1.index t (0 : Fin 2) * 256 + b.val, hB⟩ p := by
    have : ((cfg0.win 1).blk t).view.emb (ix2 b p) = ix2 (⟨win0_1.index t (0 : Fin 2) * 256 + b.val, hB⟩ : Fin 16384) p := by
      funext a; apply Fin.ext
      match a with
      | ⟨0, _⟩ => show win0_1.index t (0 : Fin 2) * 256 + 1 * b.val = win0_1.index t (0 : Fin 2) * 256 + b.val; omega
      | ⟨1, _⟩ => show win0_1.index t (1 : Fin 2) * 2016 + 1 * p.val = p.val; omega
    rw [this]; rfl
  rw [hG]
  unfold Cert.Spec.pairDot
  refine Finset.sum_congr rfl fun d _ => ?_
  have hrd : ∀ i : Fin 64, iblk m c 0 t (ix3 b i d)
      = V m c main_arg0 (ix3 (⟨win0_1.index t (0 : Fin 2) * 256 + b.val, hB⟩ : Fin 16384) i d) := fun i => by
    show V m c main_arg0 (((cfg0.win 0).blk t).view.emb (ix3 b i d)) = _
    refine congrArg (V m c main_arg0) ?_
    funext a; apply Fin.ext
    match a with
    | ⟨0, _⟩ => show win0_0.index t (0 : Fin 3) * 256 + 1 * b.val = win0_1.index t (0 : Fin 2) * 256 + b.val; omega
    | ⟨1, _⟩ => show win0_0.index t (1 : Fin 3) * 64 + 1 * i.val = i.val; omega
    | ⟨2, _⟩ => show win0_0.index t (2 : Fin 3) * 128 + 1 * d.val = d.val; omega
  rw [hrd, hrd]

/-- An index of the array is in point `t`'s block iff each coordinate is in the block's range on its axis. -/
theorem mem_blk (t : Fin cfg0.N) (i : S16384x2016.Idx) :
    i ∈ ((cfg0.win 1).blk t).view.set ↔ ∀ a : Fin 2, win0_1.index t a * S256x2016.size a ≤ (i a).val ∧ (i a).val < win0_1.index t a * S256x2016.size a + S256x2016.size a := by
  show i ∈ ((View.whole main_v0).slice (win0_1.rect t)).set ↔ _
  rw [View.set_slice_whole, Rect.mem_set_unit]
  exact Iff.rfl

/-- Every entry of the result lies in the block of the point that handles its batch rows. -/
theorem cover (i : S16384x2016.Idx) :
    ∃ t : Fin cfg0.N, (cfg0.win 1).flush t = true ∧ i ∈ ((cfg0.win 1).blk t).view.set := by
  have hi0 : (i 0).val < 16384 := (i 0).isLt
  have hi1 : (i 1).val < 2016 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 2016 ≤ (i 1).val ∧ (i 1).val < win0_1.index t (1 : Fin 2) * 2016 + 2016; omega

/-- THE ARRAY after the run is the specification of the argument array. -/
theorem final (c : Dev nD) : (dats m 0 c).arrAt 1 cfg0.N = Cert.Spec.G (m ((c : Thread nD τ).loc main_arg0)) :=
  (dats m 0 c).arrAt_eq_of_cover 1 (Cert.Spec.G (V m c main_arg0)) (fun t _ => flushed_eq m c t) cover

/-- The kernel's run: the result array ends at the specification, the argument unchanged. -/
theorem run : θ_run defs (onTc (τ := τ) (main (F := Ideal))) ⟨m, fun _ => 0, ρ⟩ fun r => ∀ c : Dev nD,
      r.2.mem ((c : Thread nD τ).loc main_v0) = Cert.Spec.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.PackedValue

end
-- ==== Proof.RefStages.lean ====
/-
  The reference program's host stages as named functions, one per group of printed lines.
  The float part: the Gram matrix  gram[b,i,j] = Σ_d x[b,i,d]·x[b,j,d]  and the final gather.
  The integer part builds the index table of the strict upper triangle the way jax's
  `nonzero` does: the 64×64 mask  i < j  flattened row-major to 4096 words; its running
  count `cs`; a histogram `binc[k] = #{n | cs n = k}` made by a scatter-add of ones; the
  running sum of the histogram, which is the position of the k-th marked entry; and from
  that position its row (floor-divide by 64, remainder 64) and column (remainder 64).
-/
import proofs.«152717_j15745350107452_2_alg».proof.Proof.Gen.ReferenceIdeal

noncomputable section

namespace Cert.ReferenceIdeal.Stages

open Cert.ReferenceIdeal Cert.ReferenceIdeal.Gen Idealize.ShloMosaic

variable {F : FTy → Type} [FloatOps F]

/-- The Gram matrix of every batch entry: `gram x (b,i,j) = Σ_d x(b,i,d)·x(b,j,d)`. -/
def gram (x : FVec F S16384x64x128 .f32) : FVec F S16384x64x64 .f32 :=
  Host.dotGeneral dot_S16384x64x128_S16384x64x128_S16384x64x64_2_2_1_1_0_0 none x x

/-- A 64×64 matrix of ones with the diagonal and everything below it set to zero. -/
def triu1 : FVec F S64x64 .f32 :=
  select (cmpi .sge (addi (iotaInDim S64x64 32 0) (broadcastInDim S64x64 ![] bcast_S_S64x64 (constantI S_ 32 0#32))) (iotaInDim S64x64 32 1))
    (broadcastInDim S64x64 ![] bcast_S_S64x64 (constant S_ .f32 0x00000000#32))
    (broadcastInDim S64x64 ![] bcast_S_S64x64 (constant S_ .f32 0x3F800000#32))

/-- The mask of the strict upper triangle: one at `(i,j)` exactly when `i < j`. -/
def mask : IVec S64x64 1 :=
  cmpf .une (triu1 (F := F)) (broadcastInDim S64x64 ![] bcast_S_S64x64 (constant S_ .f32 0x00000000#32))

/-- The mask flattened row-major to 4096 entries, each widened to a 32-bit word (0 or 1). -/
def maskWords : IVec S4096 32 :=
  extui 32 (shapeCast S4096 (mask (F := F)) shapeCasts_S64x64_S4096) natLt_1_32

/-- The rank-zero zero every running sum starts from. -/
def zero0 : IVec S_ 32 := broadcastInDim S_ ![] bcast_S_S_ (constantI S_ 32 0#32)

/-- Running count of marked positions: `cs n = #{q ≤ n | mask q}`. -/
def cs : IVec S4096 32 :=
  Host.reduceWindow IntOp.addi ![4096] ![1] ![4095] ![0] (maskWords (F := F)) zero0 reduceWindows_S4096_S4096_w4096s1p4095_0 h_S_

/-- The running count clipped below at zero (it is never negative). -/
def clipped : IVec S4096 32 :=
  maxsi (broadcastInDim S4096 ![] bcast_S_S4096 (constantI S_ 32 0#32)) (cs (F := F))

/-- The histogram's scatter indices: a negative index would wrap by 2016 (none is negative). -/
def idx4096 : IVec S4096 32 :=
  select (cmpi .slt (clipped (F := F)) (broadcastInDim S4096 ![] bcast_S_S4096 (constantI S_ 32 0#32)))
    (addi (clipped (F := F)) (broadcastInDim S4096 ![] bcast_S_S4096 (constantI S_ 32 2016#32)))
    (clipped (F := F))

/-- The scatter indices as a column of one-component index vectors. -/
def idxCol : IVec S4096x1 32 := broadcastInDim S4096x1 ![0] bcast_S4096_S4096x1_0 (idx4096 (F := F))

/-- The histogram of the running count: `binc k = #{n | cs n = k}` for `k < 2016` (a count of 2016 falls outside and is dropped). -/
def binc : IVec S2016 32 :=
  Host.scatter scatter_S2016_S4096x1_S4096_n_0_0_1 IntOp.addi
    (broadcastInDim S2016 ![] bcast_S_S2016 (constantI S_ 32 0#32)) (idxCol (F := F))
    (broadcastInDim S4096 ![] bcast_S_S4096 (constantI S_ 32 1#32))

/-- Running sum of the histogram: `flat k = #{n | cs n ≤ k}`, the flattened position of the k-th marked entry. -/
def flat : IVec S2016 32 :=
  Host.reduceWindow IntOp.addi ![2016] ![1] ![2015] ![0] (binc (F := F)) zero0 reduceWindows_S2016_S2016_w2016s1p2015_0 h_S_

/-- jax's integer floor division by a scalar: truncating division, less one when the signs differ and the remainder is not zero. -/
def floorDiv (a : IVec S2016 32) (b : IVec S_ 32) : IVec S2016 32 :=
  select
    (andi (cmpi .ne (signi a) (broadcastInDim S2016 ![] bcast_S_S2016 (signi b)))
          (cmpi .ne (Host.remsi a (broadcastInDim S2016 ![] bcast_S_S2016 b)) (broadcastInDim S2016 ![] bcast_S_S2016 (constantI S_ 32 0#32))))
    (subi (Host.divsi a (broadcastInDim S2016 ![] bcast_S_S2016 b)) (broadcastInDim S2016 ![] bcast_S_S2016 (constantI S_ 32 1#32)))
    (Host.divsi a (broadcastInDim S2016 ![] bcast_S_S2016 b))

/-- The divisor jax's remainder really divides by: one in place of zero. -/
def safeDivisor (b : IVec S_ 32) : IVec S_ 32 :=
  select (cmpi .eq b (constantI S_ 32 0#32)) (constantI S_ 32 1#32) b

/-- jax's integer remainder by a scalar: the truncating remainder, plus the divisor when its sign differs from the divisor's and it is not zero. -/
def remainder (a : IVec S2016 32) (b : IVec S_ 32) : IVec S2016 32 :=
  select
    (andi (cmpi .ne (cmpi .slt (Host.remsi a (broadcastInDim S2016 ![] bcast_S_S2016 (safeDivisor b))) (broadcastInDim S2016 ![] bcast_S_S2016 (constantI S_ 32 0#32)))
                    (broadcastInDim S2016 ![] bcast_S_S2016 (cmpi .slt (safeDivisor b) (constantI S_ 32 0#32))))
          (cmpi .ne (Host.remsi a (broadcastInDim S2016 ![] bcast_S_S2016 (safeDivisor b))) (broadcastInDim S2016 ![] bcast_S_S2016 (constantI S_ 32 0#32))))
    (addi (Host.remsi a (broadcastInDim S2016 ![] bcast_S_S2016 (safeDivisor b))) (broadcastInDim S2016 ![] bcast_S_S2016 (safeDivisor b)))
    (Host.remsi a (broadcastInDim S2016 ![] bcast_S_S2016 (safeDivisor b)))

/-- A negative index wraps by 64 (none is negative). -/
def wrap64 (a : IVec S2016 32) : IVec S2016 32 :=
  select (cmpi .slt a (broadcastInDim S2016 ![] bcast_S_S2016 (constantI S_ 32 0#32)))
    (addi a (broadcastInDim S2016 ![] bcast_S_S2016 (constantI S_ 32 64#32))) a

/-- Row of the k-th marked entry: `(flat k / 64) mod 64`. -/
def rowWords : IVec S2016 32 :=
  wrap64 (remainder (floorDiv (flat (F := F)) (constantI S_ 32 64#32)) (constantI S_ 32 64#32))

/-- Column of the k-th marked entry: `(flat k / 1) mod 64`. -/
def colWords : IVec S2016 32 :=
  wrap64 (remainder (floorDiv (flat (F := F)) (constantI S_ 32 1#32)) (constantI S_ 32 64#32))

/-- The index table: entry `(k,0)` the row and `(k,1)` the column of the k-th pair `i < j` in row-major order. -/
def idxPair : IVec S2016x2 32 :=
  concatenate S2016x2 1
    [⟨S2016x1, broadcastInDim S2016x1 ![0] bcast_S2016_S2016x1_0 (rowWords (F := F))⟩,
     ⟨S2016x1, broadcastInDim S2016x1 ![0] bcast_S2016_S2016x1_0 (colWords (F := F))⟩]
    concatenates_S2016x1_S2016x1_S2016x2_d1

/-- The reference's result: the Gram matrix read at the table's rows and columns. -/
def out (x : FVec F S16384x64x128 .f32) : FVec F S16384x2016 .f32 :=
  Host.gather gather_S16384x64x64_S2016x2_S16384x2016_0_12_n_n_12_1_1638411 (gram x) (idxPair (F := F))

end Cert.ReferenceIdeal.Stages

end
-- ==== Proof.RefRun.lean ====
/-
  The reference program's run, written out: @main is one straight line of host operations once each outlined
  function is unfolded at its call (a call's operations run over that call's own buffers, its arguments the
  caller's), so every weakly fair execution terminates with each buffer at the fold of the operations' results
  over the launch contents. The fold at the result buffer is `Stages.out` of the argument: the line is cut into
  nine stretches, one per stage (the Gram matrix and the mask; the mask's running count; the histogram; its
  running sum; floor-divide by 64; remainder by 64; floor-divide by 1; remainder by 64; the two wraps, the index
  table and the gather), each stretch's value is read off at an arbitrary valuation before it, and the values are
  composed, a buffer that a later stretch reads being carried across the stretches that do not write it.
-/
import proofs.«152717_j15745350107452_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 136 operations in order, each call's body listed at the call over that call's buffers. -/
abbrev ops : List (HloOp τ sig (Elt F)) :=
  [ binary main_arg0 main_arg0 main_v0 ((fun l r => Host.dotGeneral dot_S16384x64x128_S16384x64x128_S16384x64x64_2_2_1_1_0_0 none l r) : (⟨S16384x64x128, .f32⟩ : BufTy).Contents (Elt F) → (⟨S16384x64x128, .f32⟩ : BufTy).Contents (Elt F) → (⟨S16384x64x64, .f32⟩ : BufTy).Contents (Elt F)),
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    TRef.nullary main_call0.v0 (iotaInDim S64x64 32 0),
    TRef.nullary main_call0.c (constantI S_ 32 0#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 main_call0.v5 (.of main_v1 : TRef sig ⟨S64x64, .f32⟩) main_call0.v6 select,
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)),
    TRef.reshape (.of main_v4 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_),
    nullary main_c (constantI S_ 32 0#32),
    unary main_c main_v6 (broadcastInDim S2016 ![] bcast_S_S2016 : (⟨S_, .i32⟩ : BufTy).Contents (Elt F) → (⟨S2016, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S4096 ![] bcast_S_S4096),
    TRef.binary main_call2.v1 (.of main_v5 : TRef sig ⟨S4096, .i32⟩) main_call2.v2 maxsi,
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    TRef.nullary main_call3.call0.c (constantI S_ 32 0#32),
    TRef.unary main_call3.call0.c main_call3.call0.v0 (broadcastInDim S_ ![] bcast_S_S_),
    TRef.binary (.of main_v15 : TRef sig ⟨S2016, .i32⟩) main_call3.call0.v0 main_call3.call0.v1 (fun x v => Host.reduceWindow IntOp.addi ![2016] ![1] ![2015] ![0] x v reduceWindows_S2016_S2016_w2016s1p2015_0 h_S_),
    nullary main_c_5 (constantI S_ 32 64#32),
    TRef.unary (.of main_c_5 : TRef sig ⟨S_, .i32⟩) main_call4.v0 (broadcastInDim S2016 ![] bcast_S_S2016),
    TRef.binary (.of main_v16 : TRef sig ⟨S2016, .i32⟩) main_call4.v0 main_call4.v1 Host.divsi,
    TRef.unary (.of main_v16 : TRef sig ⟨S2016, .i32⟩) main_call4.v2 signi,
    TRef.unary (.of main_c_5 : TRef sig ⟨S_, .i32⟩) main_call4.v3 signi,
    TRef.unary main_call4.v3 main_call4.v4 (broadcastInDim S2016 ![] bcast_S_S2016),
    TRef.binary main_call4.v2 main_call4.v4 main_call4.v5 (cmpi .ne),
    TRef.unary (.of main_c_5 : TRef sig ⟨S_, .i32⟩) main_call4.v6 (broadcastInDim S2016 ![] bcast_S_S2016),
    TRef.binary (.of main_v16 : TRef sig ⟨S2016, .i32⟩) main_call4.v6 main_call4.v7 Host.remsi,
    TRef.nullary main_call4.c (constantI S_ 32 0#32),
    TRef.unary main_call4.c main_call4.v8 (broadcastInDim S2016 ![] bcast_S_S2016),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2016 ![] bcast_S_S2016),
    TRef.binary main_call4.v1 main_call4.v11 main_call4.v12 subi,
    TRef.ternary main_call4.v10 main_call4.v12 main_call4.v1 main_call4.call0.v0 select,
    nullary main_c_6 (constantI S_ 32 64#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S2016 ![] bcast_S_S2016),
    TRef.binary (.of main_v17 : TRef sig ⟨S2016, .i32⟩) main_call5.v3 main_call5.v4 Host.remsi,
    TRef.nullary main_call5.c_1 (constantI S_ 32 0#32),
    TRef.unary main_call5.c_1 main_call5.v5 (broadcastInDim S2016 ![] bcast_S_S2016),
    TRef.binary main_call5.v4 main_call5.v5 main_call5.v6 (cmpi .ne),
    TRef.nullary main_call5.c_2 (constantI S_ 32 0#32),
    TRef.unary main_call5.c_2 main_call5.v7 (broadcastInDim S2016 ![] bcast_S_S2016),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2016 ![] bcast_S_S2016),
    TRef.binary main_call5.v8 main_call5.v10 main_call5.v11 (cmpi .ne),
    TRef.binary main_call5.v11 main_call5.v6 main_call5.v12 andi,
    TRef.unary main_call5.call0.v0 main_call5.v13 (broadcastInDim S2016 ![] bcast_S_S2016),
    TRef.binary main_call5.v4 main_call5.v13 main_call5.v14 addi,
    TRef.ternary main_call5.v12 main_call5.v14 main_call5.v4 main_call5.v15 select,
    nullary main_c_7 (constantI S_ 32 1#32),
    TRef.unary (.of main_c_7 : TRef sig ⟨S_, .i32⟩) main_call6.v0 (broadcastInDim S2016 ![] bcast_S_S2016),
    TRef.binary (.of main_v16 : TRef sig ⟨S2016, .i32⟩) main_call6.v0 main_call6.v1 Host.divsi,
    TRef.unary (.of main_v16 : TRef sig ⟨S2016, .i32⟩) main_call6.v2 signi,
    TRef.unary (.of main_c_7 : TRef sig ⟨S_, .i32⟩) main_call6.v3 signi,
    TRef.unary main_call6.v3 main_call6.v4 (broadcastInDim S2016 ![] bcast_S_S2016),
    TRef.binary main_call6.v2 main_call6.v4 main_call6.v5 (cmpi .ne),
    TRef.unary (.of main_c_7 : TRef sig ⟨S_, .i32⟩) main_call6.v6 (broadcastInDim S2016 ![] bcast_S_S2016),
    TRef.binary (.of main_v16 : TRef sig ⟨S2016, .i32⟩) main_call6.v6 main_call6.v7 Host.remsi,
    TRef.nullary main_call6.c (constantI S_ 32 0#32),
    TRef.unary main_call6.c main_call6.v8 (broadcastInDim S2016 ![] bcast_S_S2016),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2016 ![] bcast_S_S2016),
    TRef.binary main_call6.v1 main_call6.v11 main_call6.v12 subi,
    TRef.ternary main_call6.v10 main_call6.v12 main_call6.v1 main_call6.call0.v0 select,
    nullary main_c_8 (constantI S_ 32 64#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S2016 ![] bcast_S_S2016),
    TRef.binary (.of main_v19 : TRef sig ⟨S2016, .i32⟩) main_call7.v3 main_call7.v4 Host.remsi,
    TRef.nullary main_call7.c_1 (constantI S_ 32 0#32),
    TRef.unary main_call7.c_1 main_call7.v5 (broadcastInDim S2016 ![] bcast_S_S2016),
    TRef.binary main_call7.v4 main_call7.v5 main_call7.v6 (cmpi .ne),
    TRef.nullary main_call7.c_2 (constantI S_ 32 0#32),
    TRef.unary main_call7.c_2 main_call7.v7 (broadcastInDim S2016 ![] bcast_S_S2016),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2016 ![] bcast_S_S2016),
    TRef.binary main_call7.v8 main_call7.v10 main_call7.v11 (cmpi .ne),
    TRef.binary main_call7.v11 main_call7.v6 main_call7.v12 andi,
    TRef.unary main_call7.call0.v0 main_call7.v13 (broadcastInDim S2016 ![] bcast_S_S2016),
    TRef.binary main_call7.v4 main_call7.v13 main_call7.v14 addi,
    TRef.ternary main_call7.v12 main_call7.v14 main_call7.v4 main_call7.v15 select,
    nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)),
    binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S16384x64x64_S2016x2_S16384x2016_0_12_n_n_12_1_1638411 x i) : (⟨S16384x64x64, .f32⟩ : BufTy).Contents (Elt F) → (⟨S2016x2, .i32⟩ : BufTy).Contents (Elt F) → (⟨S16384x2016, .f32⟩ : BufTy).Contents (Elt F)) ]

-- one bind re-associated per operation

set_option maxRecDepth 4096 in
theorem main_eq (c : Dev nD) : main (F := F) c = seq ops := by
  simp only [main, fn_triu.body, fn_cumsum_0.body, fn_cumsum.body, fn_clip.body, fn_cumsum_2.body, fn_cumsum_1.body, fn_where.body, fn_floor_divide.body, fn_where_3.body, fn_remainder.body, seq, bind_assoc, pure_bind]

/-! ## The nine stretches -/

/-- Operations 1–15. -/
def ops₁ : List (HloOp τ sig (Elt F)) :=
  [ binary main_arg0 main_arg0 main_v0 ((fun l r => Host.dotGeneral dot_S16384x64x128_S16384x64x128_S16384x64x64_2_2_1_1_0_0 none l r) : (⟨S16384x64x128, .f32⟩ : BufTy).Contents (Elt F) → (⟨S16384x64x128, .f32⟩ : BufTy).Contents (Elt F) → (⟨S16384x64x64, .f32⟩ : BufTy).Contents (Elt F)),
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    TRef.nullary main_call0.v0 (iotaInDim S64x64 32 0),
    TRef.nullary main_call0.c (constantI S_ 32 0#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 main_call0.v5 (.of main_v1 : TRef sig ⟨S64x64, .f32⟩) main_call0.v6 select,
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)) ]

/-- Operations 16–20. -/
def ops₂ : List (HloOp τ sig (Elt F)) :=
  [ TRef.reshape (.of main_v4 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_) ]

/-- Operations 21–37. -/
def ops₃ : List (HloOp τ sig (Elt F)) :=
  [ nullary main_c (constantI S_ 32 0#32),
    unary main_c main_v6 (broadcastInDim S2016 ![] bcast_S_S2016 : (⟨S_, .i32⟩ : BufTy).Contents (Elt F) → (⟨S2016, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S4096 ![] bcast_S_S4096),
    TRef.binary main_call2.v1 (.of main_v5 : TRef sig ⟨S4096, .i32⟩) main_call2.v2 maxsi,
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)) ]

/-- Operations 38–40. -/
def ops₄ : List (HloOp τ sig (Elt F)) :=
  [ TRef.nullary main_call3.call0.c (constantI S_ 32 0#32),
    TRef.unary main_call3.call0.c main_call3.call0.v0 (broadcastInDim S_ ![] bcast_S_S_),
    TRef.binary (.of main_v15 : TRef sig ⟨S2016, .i32⟩) main_call3.call0.v0 main_call3.call0.v1 (fun x v => Host.reduceWindow IntOp.addi ![2016] ![1] ![2015] ![0] x v reduceWindows_S2016_S2016_w2016s1p2015_0 h_S_) ]

/-- Operations 41–57. -/
def ops₅ : List (HloOp τ sig (Elt F)) :=
  [ nullary main_c_5 (constantI S_ 32 64#32),
    TRef.unary (.of main_c_5 : TRef sig ⟨S_, .i32⟩) main_call4.v0 (broadcastInDim S2016 ![] bcast_S_S2016),
    TRef.binary (.of main_v16 : TRef sig ⟨S2016, .i32⟩) main_call4.v0 main_call4.v1 Host.divsi,
    TRef.unary (.of main_v16 : TRef sig ⟨S2016, .i32⟩) main_call4.v2 signi,
    TRef.unary (.of main_c_5 : TRef sig ⟨S_, .i32⟩) main_call4.v3 signi,
    TRef.unary main_call4.v3 main_call4.v4 (broadcastInDim S2016 ![] bcast_S_S2016),
    TRef.binary main_call4.v2 main_call4.v4 main_call4.v5 (cmpi .ne),
    TRef.unary (.of main_c_5 : TRef sig ⟨S_, .i32⟩) main_call4.v6 (broadcastInDim S2016 ![] bcast_S_S2016),
    TRef.binary (.of main_v16 : TRef sig ⟨S2016, .i32⟩) main_call4.v6 main_call4.v7 Host.remsi,
    TRef.nullary main_call4.c (constantI S_ 32 0#32),
    TRef.unary main_call4.c main_call4.v8 (broadcastInDim S2016 ![] bcast_S_S2016),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S2016 ![] bcast_S_S2016),
    TRef.binary main_call4.v1 main_call4.v11 main_call4.v12 subi,
    TRef.ternary main_call4.v10 main_call4.v12 main_call4.v1 main_call4.call0.v0 select ]

/-- Operations 58–79. -/
def ops₆ : List (HloOp τ sig (Elt F)) :=
  [ nullary main_c_6 (constantI S_ 32 64#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S2016 ![] bcast_S_S2016),
    TRef.binary (.of main_v17 : TRef sig ⟨S2016, .i32⟩) main_call5.v3 main_call5.v4 Host.remsi,
    TRef.nullary main_call5.c_1 (constantI S_ 32 0#32),
    TRef.unary main_call5.c_1 main_call5.v5 (broadcastInDim S2016 ![] bcast_S_S2016),
    TRef.binary main_call5.v4 main_call5.v5 main_call5.v6 (cmpi .ne),
    TRef.nullary main_call5.c_2 (constantI S_ 32 0#32),
    TRef.unary main_call5.c_2 main_call5.v7 (broadcastInDim S2016 ![] bcast_S_S2016),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S2016 ![] bcast_S_S2016),
    TRef.binary main_call5.v8 main_call5.v10 main_call5.v11 (cmpi .ne),
    TRef.binary main_call5.v11 main_call5.v6 main_call5.v12 andi,
    TRef.unary main_call5.call0.v0 main_call5.v13 (broadcastInDim S2016 ![] bcast_S_S2016),
    TRef.binary main_call5.v4 main_call5.v13 main_call5.v14 addi,
    TRef.ternary main_call5.v12 main_call5.v14 main_call5.v4 main_call5.v15 select ]

/-- Operations 80–96. -/
def ops₇ : List (HloOp τ sig (Elt F)) :=
  [ nullary main_c_7 (constantI S_ 32 1#32),
    TRef.unary (.of main_c_7 : TRef sig ⟨S_, .i32⟩) main_call6.v0 (broadcastInDim S2016 ![] bcast_S_S2016),
    TRef.binary (.of main_v16 : TRef sig ⟨S2016, .i32⟩) main_call6.v0 main_call6.v1 Host.divsi,
    TRef.unary (.of main_v16 : TRef sig ⟨S2016, .i32⟩) main_call6.v2 signi,
    TRef.unary (.of main_c_7 : TRef sig ⟨S_, .i32⟩) main_call6.v3 signi,
    TRef.unary main_call6.v3 main_call6.v4 (broadcastInDim S2016 ![] bcast_S_S2016),
    TRef.binary main_call6.v2 main_call6.v4 main_call6.v5 (cmpi .ne),
    TRef.unary (.of main_c_7 : TRef sig ⟨S_, .i32⟩) main_call6.v6 (broadcastInDim S2016 ![] bcast_S_S2016),
    TRef.binary (.of main_v16 : TRef sig ⟨S2016, .i32⟩) main_call6.v6 main_call6.v7 Host.remsi,
    TRef.nullary main_call6.c (constantI S_ 32 0#32),
    TRef.unary main_call6.c main_call6.v8 (broadcastInDim S2016 ![] bcast_S_S2016),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S2016 ![] bcast_S_S2016),
    TRef.binary main_call6.v1 main_call6.v11 main_call6.v12 subi,
    TRef.ternary main_call6.v10 main_call6.v12 main_call6.v1 main_call6.call0.v0 select ]

/-- Operations 97–118. -/
def ops₈ : List (HloOp τ sig (Elt F)) :=
  [ nullary main_c_8 (constantI S_ 32 64#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S2016 ![] bcast_S_S2016),
    TRef.binary (.of main_v19 : TRef sig ⟨S2016, .i32⟩) main_call7.v3 main_call7.v4 Host.remsi,
    TRef.nullary main_call7.c_1 (constantI S_ 32 0#32),
    TRef.unary main_call7.c_1 main_call7.v5 (broadcastInDim S2016 ![] bcast_S_S2016),
    TRef.binary main_call7.v4 main_call7.v5 main_call7.v6 (cmpi .ne),
    TRef.nullary main_call7.c_2 (constantI S_ 32 0#32),
    TRef.unary main_call7.c_2 main_call7.v7 (broadcastInDim S2016 ![] bcast_S_S2016),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S2016 ![] bcast_S_S2016),
    TRef.binary main_call7.v8 main_call7.v10 main_call7.v11 (cmpi .ne),
    TRef.binary main_call7.v11 main_call7.v6 main_call7.v12 andi,
    TRef.unary main_call7.call0.v0 main_call7.v13 (broadcastInDim S2016 ![] bcast_S_S2016),
    TRef.binary main_call7.v4 main_call7.v13 main_call7.v14 addi,
    TRef.ternary main_call7.v12 main_call7.v14 main_call7.v4 main_call7.v15 select ]

/-- Operations 119–136. -/
def ops₉ : List (HloOp τ sig (Elt F)) :=
  [ nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)),
    binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S16384x64x64_S2016x2_S16384x2016_0_12_n_n_12_1_1638411 x i) : (⟨S16384x64x64, .f32⟩ : BufTy).Contents (Elt F) → (⟨S2016x2, .i32⟩ : BufTy).Contents (Elt F) → (⟨S16384x2016, .f32⟩ : BufTy).Contents (Elt F)) ]

/-! ## The stages as functions of what they read -/

/-- The running count of a 64×64 mask flattened row-major: `csOf mk n = #{q ≤ n | mk q}`. -/
def csOf (mk : IVec S64x64 1) : IVec S4096 32 :=
  Host.reduceWindow IntOp.addi ![4096] ![1] ![4095] ![0]
    (extui 32 (shapeCast S4096 mk shapeCasts_S64x64_S4096) natLt_1_32) Stages.zero0
    reduceWindows_S4096_S4096_w4096s1p4095_0 h_S_

/-- A running count clipped below at zero. -/
def clippedOf (c : IVec S4096 32) : IVec S4096 32 :=
  maxsi (broadcastInDim S4096 ![] bcast_S_S4096 (constantI S_ 32 0#32)) c

/-- The scatter indices made from a running count: a negative one wraps by 2016. -/
def idxOf (c : IVec S4096 32) : IVec S4096 32 :=
  select (cmpi .slt (clippedOf c) (broadcastInDim S4096 ![] bcast_S_S4096 (constantI S_ 32 0#32)))
    (addi (clippedOf c) (broadcastInDim S4096 ![] bcast_S_S4096 (constantI S_ 32 2016#32)))
    (clippedOf c)

/-- The histogram of a running count: a scatter-add of ones at the count's values. -/
def bincOf (c : IVec S4096 32) : IVec S2016 32 :=
  Host.scatter scatter_S2016_S4096x1_S4096_n_0_0_1 IntOp.addi
    (broadcastInDim S2016 ![] bcast_S_S2016 (constantI S_ 32 0#32))
    (broadcastInDim S4096x1 ![0] bcast_S4096_S4096x1_0 (idxOf c))
    (broadcastInDim S4096 ![] bcast_S_S4096 (constantI S_ 32 1#32))

/-- The running sum of a histogram. -/
def flatOf (b : IVec S2016 32) : IVec S2016 32 :=
  Host.reduceWindow IntOp.addi ![2016] ![1] ![2015] ![0] b Stages.zero0
    reduceWindows_S2016_S2016_w2016s1p2015_0 h_S_

/-- The index table made from the two remainders, and the Gram matrix read at it. -/
def gatherOf (g : FVec F S16384x64x64 .f32) (r c : IVec S2016 32) : FVec F S16384x2016 .f32 :=
  Host.gather gather_S16384x64x64_S2016x2_S16384x2016_0_12_n_n_12_1_1638411 g
    (concatenate S2016x2 1
      [⟨S2016x1, broadcastInDim S2016x1 ![0] bcast_S2016_S2016x1_0 (Stages.wrap64 r)⟩,
       ⟨S2016x1, broadcastInDim S2016x1 ![0] bcast_S2016_S2016x1_0 (Stages.wrap64 c)⟩]
      concatenates_S2016x1_S2016x1_S2016x2_d1)

/-! ## Each stretch's value, and what it leaves alone -/

attribute [local irreducible] Host.reduceWindow Host.scatter Host.gather in
set_option maxRecDepth 8192 in
set_option maxHeartbeats 800000 in
theorem s1_v0 (W : Valuation τ sig (Elt F)) :
    after ops₁ W (main_v0 : DevRef τ sig) = Stages.gram (W (main_arg0 : DevRef τ sig)) := by
  unfold ops₁
  after_results_simp
  rfl

attribute [local irreducible] Host.reduceWindow Host.scatter Host.gather in
set_option maxRecDepth 8192 in
set_option maxHeartbeats 800000 in
theorem s1_v4 (W : Valuation τ sig (Elt F)) :
    after ops₁ W (main_v4 : DevRef τ sig) = Stages.mask (F := F) := by
  unfold ops₁
  after_results_simp
  rfl

attribute [local irreducible] Host.reduceWindow Host.scatter Host.gather in
set_option maxRecDepth 8192 in
set_option maxHeartbeats 800000 in
theorem s2_v5 (W : Valuation τ sig (Elt F)) :
    after ops₂ W (main_v5 : DevRef τ sig) = csOf (W (main_v4 : DevRef τ sig)) := by
  unfold ops₂
  after_results_simp
  rfl

theorem s2_v0 (W : Valuation τ sig (Elt F)) :
    after ops₂ W (main_v0 : DevRef τ sig) = W (main_v0 : DevRef τ sig) := by
  unfold ops₂
  after_results_simp

attribute [local irreducible] Host.reduceWindow Host.scatter Host.gather in
set_option maxRecDepth 8192 in
set_option maxHeartbeats 800000 in
theorem s3_v15 (W : Valuation τ sig (Elt F)) :
    after ops₃ W (main_v15 : DevRef τ sig) = bincOf (W (main_v5 : DevRef τ sig)) := by
  unfold ops₃
  after_results_simp
  rfl

theorem s3_v0 (W : Valuation τ sig (Elt F)) :
    after ops₃ W (main_v0 : DevRef τ sig) = W (main_v0 : DevRef τ sig) := by
  unfold ops₃
  after_results_simp

attribute [local irreducible] Host.reduceWindow Host.scatter Host.gather in
set_option maxRecDepth 8192 in
set_option maxHeartbeats 800000 in
theorem s4_v16 (W : Valuation τ sig (Elt F)) :
    after ops₄ W (main_v16 : DevRef τ sig) = flatOf (W (main_v15 : DevRef τ sig)) := by
  unfold ops₄
  after_results_simp
  rfl

theorem s4_v0 (W : Valuation τ sig (Elt F)) :
    after ops₄ W (main_v0 : DevRef τ sig) = W (main_v0 : DevRef τ sig) := by
  unfold ops₄
  after_results_simp

attribute [local irreducible] Host.reduceWindow Host.scatter Host.gather in
set_option maxRecDepth 8192 in
set_option maxHeartbeats 800000 in
theorem s5_v17 (W : Valuation τ sig (Elt F)) :
    after ops₅ W (main_v17 : DevRef τ sig) = Stages.floorDiv (W (main_v16 : DevRef τ sig)) (constantI S_ 32 64#32) := by
  unfold ops₅
  after_results_simp
  rfl

theorem s5_v0 (W : Valuation τ sig (Elt F)) :
    after ops₅ W (main_v0 : DevRef τ sig) = W (main_v0 : DevRef τ sig) := by
  unfold ops₅
  after_results_simp

theorem s5_v16 (W : Valuation τ sig (Elt F)) :
    after ops₅ W (main_v16 : DevRef τ sig) = W (main_v16 : DevRef τ sig) := by
  unfold ops₅
  after_results_simp

attribute [local irreducible] Host.reduceWindow Host.scatter Host.gather in
set_option maxRecDepth 8192 in
set_option maxHeartbeats 800000 in
theorem s6_v18 (W : Valuation τ sig (Elt F)) :
    after ops₆ W (main_v18 : DevRef τ sig) = Stages.remainder (W (main_v17 : DevRef τ sig)) (constantI S_ 32 64#32) := by
  unfold ops₆
  after_results_simp
  rfl

theorem s6_v0 (W : Valuation τ sig (Elt F)) :
    after ops₆ W (main_v0 : DevRef τ sig) = W (main_v0 : DevRef τ sig) := by
  unfold ops₆
  after_results_simp

theorem s6_v16 (W : Valuation τ sig (Elt F)) :
    after ops₆ W (main_v16 : DevRef τ sig) = W (main_v16 : DevRef τ sig) := by
  unfold ops₆
  after_results_simp

attribute [local irreducible] Host.reduceWindow Host.scatter Host.gather in
set_option maxRecDepth 8192 in
set_option maxHeartbeats 800000 in
theorem s7_v19 (W : Valuation τ sig (Elt F)) :
    after ops₇ W (main_v19 : DevRef τ sig) = Stages.floorDiv (W (main_v16 : DevRef τ sig)) (constantI S_ 32 1#32) := by
  unfold ops₇
  after_results_simp
  rfl

theorem s7_v0 (W : Valuation τ sig (Elt F)) :
    after ops₇ W (main_v0 : DevRef τ sig) = W (main_v0 : DevRef τ sig) := by
  unfold ops₇
  after_results_simp

theorem s7_v18 (W : Valuation τ sig (Elt F)) :
    after ops₇ W (main_v18 : DevRef τ sig) = W (main_v18 : DevRef τ sig) := by
  unfold ops₇
  after_results_simp

attribute [local irreducible] Host.reduceWindow Host.scatter Host.gather in
set_option maxRecDepth 8192 in
set_option maxHeartbeats 800000 in
theorem s8_v20 (W : Valuation τ sig (Elt F)) :
    after ops₈ W (main_v20 : DevRef τ sig) = Stages.remainder (W (main_v19 : DevRef τ sig)) (constantI S_ 32 64#32) := by
  unfold ops₈
  after_results_simp
  rfl

theorem s8_v0 (W : Valuation τ sig (Elt F)) :
    after ops₈ W (main_v0 : DevRef τ sig) = W (main_v0 : DevRef τ sig) := by
  unfold ops₈
  after_results_simp

theorem s8_v18 (W : Valuation τ sig (Elt F)) :
    after ops₈ W (main_v18 : DevRef τ sig) = W (main_v18 : DevRef τ sig) := by
  unfold ops₈
  after_results_simp

attribute [local irreducible] Host.reduceWindow Host.scatter Host.gather in
set_option maxRecDepth 8192 in
set_option maxHeartbeats 800000 in
theorem s9_v34 (W : Valuation τ sig (Elt F)) :
    after ops₉ W (main_v34 : DevRef τ sig) = gatherOf (W (main_v0 : DevRef τ sig)) (W (main_v18 : DevRef τ sig)) (W (main_v20 : DevRef τ sig)) := by
  unfold ops₉
  after_results_simp
  rfl

theorem s1_arg0 (W : Valuation τ sig (Elt F)) :
    after ops₁ W (main_arg0 : DevRef τ sig) = W (main_arg0 : DevRef τ sig) := by
  unfold ops₁
  after_results_simp

theorem s2_arg0 (W : Valuation τ sig (Elt F)) :
    after ops₂ W (main_arg0 : DevRef τ sig) = W (main_arg0 : DevRef τ sig) := by
  unfold ops₂
  after_results_simp

theorem s3_arg0 (W : Valuation τ sig (Elt F)) :
    after ops₃ W (main_arg0 : DevRef τ sig) = W (main_arg0 : DevRef τ sig) := by
  unfold ops₃
  after_results_simp

theorem s4_arg0 (W : Valuation τ sig (Elt F)) :
    after ops₄ W (main_arg0 : DevRef τ sig) = W (main_arg0 : DevRef τ sig) := by
  unfold ops₄
  after_results_simp

theorem s5_arg0 (W : Valuation τ sig (Elt F)) :
    after ops₅ W (main_arg0 : DevRef τ sig) = W (main_arg0 : DevRef τ sig) := by
  unfold ops₅
  after_results_simp

theorem s6_arg0 (W : Valuation τ sig (Elt F)) :
    after ops₆ W (main_arg0 : DevRef τ sig) = W (main_arg0 : DevRef τ sig) := by
  unfold ops₆
  after_results_simp

theorem s7_arg0 (W : Valuation τ sig (Elt F)) :
    after ops₇ W (main_arg0 : DevRef τ sig) = W (main_arg0 : DevRef τ sig) := by
  unfold ops₇
  after_results_simp

theorem s8_arg0 (W : Valuation τ sig (Elt F)) :
    after ops₈ W (main_arg0 : DevRef τ sig) = W (main_arg0 : DevRef τ sig) := by
  unfold ops₈
  after_results_simp

theorem s9_arg0 (W : Valuation τ sig (Elt F)) :
    after ops₉ W (main_arg0 : DevRef τ sig) = W (main_arg0 : DevRef τ sig) := by
  unfold ops₉
  after_results_simp

/-! ## The whole line -/

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The whole line is the nine stretches in order. -/
theorem ops_split : (ops : List (HloOp τ sig (Elt F))) = ops₁ ++ ops₂ ++ ops₃ ++ ops₄ ++ ops₅ ++ ops₆ ++ ops₇ ++ ops₈ ++ ops₉ := rfl

theorem after_all (V : Valuation τ sig (Elt F)) :
    after ops V = after ops₉ (after ops₈ (after ops₇ (after ops₆ (after ops₅ (after ops₄ (after ops₃ (after ops₂ (after ops₁ V)))))))) := by
  rw [ops_split]; simp only [after_append]

attribute [local irreducible] Host.reduceWindow Host.scatter Host.gather in
/-- The result buffer after the whole line: each stretch's value lemma at the valuation the stretches before it leave,
    the Gram matrix, the running sum and the first remainder carried across the stretches that do not write them. -/
theorem out_eq (V : Valuation τ sig (Elt F)) :
    after ops V (main_v34 : DevRef τ sig) = Stages.out (V (main_arg0 : DevRef τ sig)) := by
  rw [after_all]
  have g1 := s1_v0 V
  have m1 := s1_v4 V
  have g2 := (s2_v0 (after ops₁ V)).trans g1
  have c2 := (s2_v5 (after ops₁ V)).trans (congrArg csOf m1)
  have g3 := (s3_v0 (after ops₂ (after ops₁ V))).trans g2
  have b3 := (s3_v15 (after ops₂ (after ops₁ V))).trans (congrArg bincOf c2)
  have g4 := (s4_v0 (after ops₃ (after ops₂ (after ops₁ V)))).trans g3
  have f4 := (s4_v16 (after ops₃ (after ops₂ (after ops₁ V)))).trans (congrArg flatOf b3)
  have g5 := (s5_v0 (after ops₄ (after ops₃ (after ops₂ (after ops₁ V))))).trans g4
  have f5 := (s5_v16 (after ops₄ (after ops₃ (after ops₂ (after ops₁ V))))).trans f4
  have q5 := (s5_v17 (after ops₄ (after ops₃ (after ops₂ (after ops₁ V))))).trans (congrArg (fun a => Stages.floorDiv a (constantI S_ 32 64#32)) f4)
  have g6 := (s6_v0 (after ops₅ (after ops₄ (after ops₃ (after ops₂ (after ops₁ V)))))).trans g5
  have f6 := (s6_v16 (after ops₅ (after ops₄ (after ops₃ (after ops₂ (after ops₁ V)))))).trans f5
  have r6 := (s6_v18 (after ops₅ (after ops₄ (after ops₃ (after ops₂ (after ops₁ V)))))).trans (congrArg (fun a => Stages.remainder a (constantI S_ 32 64#32)) q5)
  have g7 := (s7_v0 (after ops₆ (after ops₅ (after ops₄ (after ops₃ (after ops₂ (after ops₁ V))))))).trans g6
  have r7 := (s7_v18 (after ops₆ (after ops₅ (after ops₄ (after ops₃ (after ops₂ (after ops₁ V))))))).trans r6
  have q7 := (s7_v19 (after ops₆ (after ops₅ (after ops₄ (after ops₃ (after ops₂ (after ops₁ V))))))).trans (congrArg (fun a => Stages.floorDiv a (constantI S_ 32 1#32)) f6)
  have g8 := (s8_v0 (after ops₇ (after ops₆ (after ops₅ (after ops₄ (after ops₃ (after ops₂ (after ops₁ V)))))))).trans g7
  have r8 := (s8_v18 (after ops₇ (after ops₆ (after ops₅ (after ops₄ (after ops₃ (after ops₂ (after ops₁ V)))))))).trans r7
  have t8 := (s8_v20 (after ops₇ (after ops₆ (after ops₅ (after ops₄ (after ops₃ (after ops₂ (after ops₁ V)))))))).trans (congrArg (fun a => Stages.remainder a (constantI S_ 32 64#32)) q7)
  rw [s9_v34, g8, r8, t8]
  rfl

/-- The argument is written by no operation. -/
theorem arg0_eq (V : Valuation τ sig (Elt F)) :
    after ops V (main_arg0 : DevRef τ sig) = V (main_arg0 : DevRef τ sig) := by
  rw [after_all, s9_arg0, s8_arg0, s7_arg0, s6_arg0, s5_arg0, s4_arg0, s3_arg0, s2_arg0, s1_arg0]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub ..⟩

/-- On every device, for any float values, from any memory with zero counters: every weakly fair execution of
    @main terminates with the result buffer at `Stages.out` of the argument's launch contents, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = Stages.out (m ((c.tc : Thread nD τ).loc main_arg0))
      ∧ r.2.mem ((c.tc : Thread nD τ).loc main_arg0) = m ((c.tc : Thread nD τ).loc main_arg0) :=
  (θ_run defs _ _).mono (fun _ h c => ⟨(h c main_v34).trans (out_eq _), (h c main_arg0).trans (arg0_eq _)⟩)
    (run_seq scopedRefs_eq scopedSems_eq defs main (fun _ => ops) main_eq (fun _ => ops_sub) m ρ)

/-- The argument's buffer is unchanged by the run. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c).2) (run m ρ)

end Cert.ReferenceIdeal.RefRun

end
-- ==== Proof.LibCumsumRank1.lean ====
/-
  jax's integer running sum, rank one, any extent. It is printed as a sliding-window reduction:
  a window of `N` positions over the `[N]` sequence padded with `N - 1` zeros in front, summed
  from zero. At output `k` the window's position `m` reads entry `k + m - (N - 1)`, which is
  padding exactly when `m < N - 1 - k`; so the result at `k` is the (wrapping) sum of the first
  `k + 1` entries. Stated for entries given as the words of natural numbers `f q`: the result is
  the word of `Σ_{q ≤ k} f q`.
-/
import Idealize.ShloMosaic.Lib.ValueIdx
import Idealize.ShloMosaic.Lib.Pipeline.Value
import Mathlib.Algebra.BigOperators.Fin
import Mathlib.Algebra.BigOperators.Group.Finset.Basic
import Mathlib.Data.Fintype.BigOperators
import Mathlib.Data.List.Basic
import Mathlib.Data.List.FinRange
import Mathlib.Tactic.SplitIfs

noncomputable section

namespace Cert.Lib.CumsumRank1

open Idealize.ShloMosaic Idealize.ShloMosaic.ValueIdx

/-- A left fold that adds to a running word the words of natural numbers adds the word of their sum. -/
theorem foldl_addi_ofNat {ι : Type} (g : ι → ℕ) (l : List ι) (a : ℕ) :
    l.foldl (fun r n => IntOp.addi r (BitVec.ofNat 32 (g n))) (BitVec.ofNat 32 a)
      = BitVec.ofNat 32 (a + (l.map g).sum) := by
  induction l generalizing a with
  | nil => simp
  | cons n l ih =>
    simp only [List.foldl_cons, List.map_cons, List.sum_cons]
    have : IntOp.addi (BitVec.ofNat 32 a) (BitVec.ofNat 32 (g n)) = BitVec.ofNat 32 (a + g n) := by
      simp [IntOp.addi, BitVec.ofNat_add]
    rw [this, ih, Nat.add_assoc]

/-- The row-major position of a rank-one index is its coordinate. -/
theorem rowMajor_symm_one_val {N : ℕ} (n : Fin (⟨1, ![N]⟩ : Shape).numel) :
    (((⟨1, ![N]⟩ : Shape).rowMajor.symm n) 0).val = n.val := by
  have := Shape.rowMajor_val_one ((⟨1, ![N]⟩ : Shape).rowMajor.symm n)
  rw [Equiv.apply_symm_apply] at this
  exact this.symm

theorem numel_one (N : ℕ) : (⟨1, ![N]⟩ : Shape).numel = N := by
  simp [Shape.numel]

/-- The sum over a window of `N` positions ending at `k`, the positions before the start of the
    sequence contributing nothing, is the sum of the first `k + 1` terms. -/
theorem sum_window (N k : ℕ) (hk : k < N) (f : ℕ → ℕ) :
    ∑ m ∈ Finset.range N, (if N - 1 ≤ k + m then f (k + m - (N - 1)) else 0)
      = ∑ q ∈ Finset.range (k + 1), f q := by
  have hr : Finset.range N = Finset.range ((N - 1 - k) + (k + 1)) := by congr 1; omega
  have h1 : ∑ m ∈ Finset.range (N - 1 - k), (if N - 1 ≤ k + m then f (k + m - (N - 1)) else 0) = 0 := by
    apply Finset.sum_eq_zero
    intro m hm
    rw [Finset.mem_range] at hm
    rw [if_neg (by omega)]
  rw [hr, Finset.sum_range_add, h1, Nat.zero_add]
  apply Finset.sum_congr rfl
  intro q hq
  rw [Finset.mem_range] at hq
  rw [if_pos (by omega)]
  congr 1
  omega

/-- A running sum written as a window of `N` positions over the sequence padded `N - 1` low,
    summed from zero, is at `k` the (wrapping) sum of the first `k + 1` entries. -/
theorem cumsum_apply {N : ℕ} {u : Shape} (x : IVec ⟨1, ![N]⟩ 32) (init : IVec u 32)
    (h : (⟨1, ![N]⟩ : Shape).ReduceWindows ![N] ![1] ![N - 1] ![0] ⟨1, ![N]⟩) (hu : 0 < u.numel)
    (hinit : init (Shape.Idx.first hu) = 0#32)
    (f : ℕ → ℕ) (hx : ∀ q : Fin N, x (ix1 q) = BitVec.ofNat 32 (f q.val)) (k : Fin N) :
    Host.reduceWindow IntOp.addi ![N] ![1] ![N - 1] ![0] x init h hu (ix1 k)
      = BitVec.ofNat 32 (∑ q ∈ Finset.range (k.val + 1), f q) := by
  unfold Host.reduceWindow
  simp only [hinit]
  refine (List.foldl_ext _ (fun r (n : Fin (⟨1, ![N]⟩ : Shape).numel) =>
      IntOp.addi r (BitVec.ofNat 32 (if N - 1 ≤ k.val + n.val then f (k.val + n.val - (N - 1)) else 0))) _ ?_).trans ?_
  · intro r n _
    congr 1
    have hn : n.val < N := lt_of_lt_of_eq n.isLt (numel_one N)
    have hs := rowMajor_symm_one_val n
    split_ifs with hin hc hc
    · have hq : k.val + n.val - (N - 1) < N := by omega
      rw [← hx ⟨k.val + n.val - (N - 1), hq⟩]
      congr 1
      funext a
      rcases a with ⟨a, ha⟩
      have ha0 : a = 0 := by have : a < 1 := ha; omega
      subst ha0
      apply Fin.ext
      show k.val * 1 + (((⟨1, ![N]⟩ : Shape).rowMajor.symm n) 0).val - (N - 1) = k.val + n.val - (N - 1)
      rw [hs, Nat.mul_one]
    · exfalso
      have h0 := (hin 0).1
      change N - 1 ≤ k.val * 1 + (((⟨1, ![N]⟩ : Shape).rowMajor.symm n) 0).val at h0
      rw [hs] at h0
      omega
    · exfalso
      apply hin
      intro a
      rcases a with ⟨a, ha⟩
      have ha0 : a = 0 := by have : a < 1 := ha; omega
      subst ha0
      show N - 1 ≤ k.val * 1 + (((⟨1, ![N]⟩ : Shape).rowMajor.symm n) 0).val
        ∧ k.val * 1 + (((⟨1, ![N]⟩ : Shape).rowMajor.symm n) 0).val - (N - 1) < N
      rw [hs]
      constructor <;> omega
    · rfl
  · have hf := foldl_addi_ofNat (fun n : Fin (⟨1, ![N]⟩ : Shape).numel =>
        if N - 1 ≤ k.val + n.val then f (k.val + n.val - (N - 1)) else 0) (List.finRange _) 0
    rw [show (0#32) = BitVec.ofNat 32 0 from rfl, hf, Nat.zero_add]
    congr 1
    rw [← List.ofFn_eq_map, List.sum_ofFn, ← sum_window N k.val k.isLt f, Finset.sum_range]
    exact Fintype.sum_equiv (finCongr (numel_one N)) _ _ (fun _ => rfl)

end Cert.Lib.CumsumRank1

end
-- ==== Proof.LibScatterCount.lean ====
/-
  A scatter-add of ones counts. The host's scatter is a left fold over the update positions in
  row-major order: each position whose result index lies inside the operand adds its update there,
  the others change nothing. With the operand all zeros, every update one and the body a 32-bit
  addition, the entry at `i₀` ends at the word of the number of update positions whose result index
  is `i₀` — for any dimension numbers, any shapes.
-/
import Idealize.ShloMosaic.Lib.ValueIdx
import Idealize.ShloMosaic.Lib.Pipeline.Value
import Mathlib.Algebra.BigOperators.Group.Finset.Basic
import Mathlib.Data.List.Basic
import Mathlib.Data.List.FinRange
import Mathlib.Tactic.SplitIfs
import Mathlib.Tactic.Convert

noncomputable section

namespace Cert.Lib.ScatterCount

open Idealize.ShloMosaic Idealize.ShloMosaic.ValueIdx

/-- A fold that, at each position of a list, adds one at the index the position names (when it names one)
    adds, at every index, the number of positions that name it. -/
theorem foldl_count {ι κ : Type} [DecidableEq κ] (dec : ∀ a b : κ, Decidable (a = b))
    (R : ι → Option κ) (upd : ι → BitVec 32) (hupd : ∀ n, upd n = 1#32)
    (l : List ι) (c : κ → ℕ) (i₀ : κ) :
    (l.foldl (fun (r : κ → BitVec 32) n =>
        match R n with
        | some i => fun i' => @ite _ (i' = i) (dec i' i) (IntOp.addi (r i) (upd n)) (r i')
        | none => r) (fun i => BitVec.ofNat 32 (c i))) i₀
      = BitVec.ofNat 32 (c i₀ + (l.map (fun n => if R n = some i₀ then 1 else 0)).sum) := by
  induction l generalizing c with
  | nil => simp
  | cons n l ih =>
    rw [List.foldl_cons, List.map_cons, List.sum_cons]
    cases hR : R n with
    | none =>
      simp only [reduceCtorEq, if_false, Nat.zero_add]
      exact ih c
    | some i =>
      simp only []
      have hfun : (fun i' => @ite _ (i' = i) (dec i' i) (IntOp.addi (BitVec.ofNat 32 (c i)) (upd n)) (BitVec.ofNat 32 (c i')))
          = fun i' => BitVec.ofNat 32 (if i' = i then c i + 1 else c i') := by
        funext i'
        by_cases hi : i' = i
        · rw [if_pos hi, if_pos hi, hupd]
          simp [IntOp.addi, BitVec.ofNat_add]
        · rw [if_neg hi, if_neg hi]
      rw [hfun, ih]
      congr 1
      by_cases hi : i₀ = i
      · subst hi; simp; omega
      · have : ¬ (some i = some i₀) := fun e => hi (Option.some.inj e).symm
        simp [hi, this]

/-- A scatter-add of ones into zeros counts, at every index, the updates that land on it. -/
theorem scatter_count {s si u : Shape} {w : ℕ} (d : ScatterDims s si u) (idx : IVec si w) (x : IVec s 32)
    (upd : IVec u 32) (hx : ∀ i, x i = 0#32) (hupd : ∀ j, upd j = 1#32) (i₀ : s.Idx) :
    Host.scatter d IntOp.addi x idx upd i₀
      = BitVec.ofNat 32 (((List.finRange u.numel).map
          (fun n => if d.resultIdx? (u.rowMajor.symm n) idx = some i₀ then 1 else 0)).sum) := by
  unfold Host.scatter
  rw [show x = fun i => BitVec.ofNat 32 ((fun _ : s.Idx => 0) i) from funext hx]
  have H := foldl_count (fun a b => inferInstance) (fun n => d.resultIdx? (u.rowMajor.symm n) idx)
    (fun n => upd (u.rowMajor.symm n)) (fun n => hupd _) (List.finRange u.numel) (fun _ => 0) i₀
  rw [Nat.zero_add] at H
  convert H using 4 with r n
  cases d.resultIdx? (u.rowMajor.symm n) idx with
  | none => rfl
  | some i =>
    funext i'
    by_cases hi : i' = i
    · simp only [if_pos hi]
    · simp only [if_neg hi]

end Cert.Lib.ScatterCount

end
-- ==== Proof.RefFlat.lean ====
/-
  The table of flattened positions of the strict upper triangle, as the reference builds it.

  The 64×64 mask `i < j` is flattened row by row to 4096 words, `maskWords n = [n / 64 < n % 64]`.
  Its running sum is `cs n = cnt n = #{q ≤ n | q / 64 < q % 64}`; it is never negative, so the clip
  at zero and the wrap of negative indices leave it unchanged. A scatter-add of ones at the
  positions `cs n` into 2016 zeros (a count of 2016 falls outside and is dropped) is the histogram
  `binc k = #{n < 4096 | cnt n = k}`, and the running sum of the histogram is
  `flat k = Σ_{k' ≤ k} binc k' = #{n < 4096 | cnt n ≤ k} = flatOf k`,
  the position of the `k`-th marked entry: the positions whose count of marked entries so far is at
  most `k` are exactly those before the `k`-th marked one (numbering from zero).

  Two general facts carry the computation. A running sum written as a sliding window of `N`
  positions over a sequence padded with `N - 1` zeros in front is, at `k`, the sum of the first
  `k + 1` entries: the window's position `m` reads entry `k + m - (N - 1)`, which is padding
  exactly when `m < N - 1 - k`. And a left fold that adds one at the index each update names adds,
  at every index, the number of updates naming it. All sums stay below `4097`, so no word wraps.
-/
import proofs.«152717_j15745350107452_2_alg».proof.Proof.RefStages
import proofs.«152717_j15745350107452_2_alg».proof.Proof.Pairs
import proofs.«152717_j15745350107452_2_alg».proof.Proof.LibCumsumRank1
import proofs.«152717_j15745350107452_2_alg».proof.Proof.LibScatterCount
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Mathlib.Algebra.BigOperators.Fin
import Mathlib.Algebra.BigOperators.Group.Finset.Basic
import Mathlib.Data.Fintype.BigOperators
import Mathlib.Data.List.Basic
import Mathlib.Data.List.FinRange
import Mathlib.Tactic.IntervalCases
import Mathlib.Tactic.SplitIfs
import Mathlib.Tactic.Convert

noncomputable section

namespace Cert.ReferenceIdeal.RefFlat

open Cert.ReferenceIdeal Cert.ReferenceIdeal.Gen Cert.ReferenceIdeal.Stages Idealize.ShloMosaic Idealize.ShloMosaic.ValueIdx
open Cert.Lib.CumsumRank1 Cert.Lib.ScatterCount

/-- A natural number below `2^31` read back as a signed word is itself. -/
theorem toInt_ofNat_small {n : ℕ} (hn : n < 2 ^ 31) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The triangular matrix of ones at `(i,j)`: one above the diagonal, zero on and below it. -/
theorem triu1_apply (i j : Fin 64) :
    Stages.triu1 (F := Ideal) (ix2 i j) = if i.val < j.val then (1 : EReal) else 0 := by
  unfold Stages.triu1
  rw [select_apply]
  have hc : cmpi .sge (addi (iotaInDim S64x64 32 0) (broadcastInDim S64x64 ![] bcast_S_S64x64 (constantI S_ 32 0#32)))
      (iotaInDim S64x64 32 1) (ix2 i j) = if i.val < j.val then 0#1 else 1#1 := by
    show IntOp.cmpi .sge (IntOp.addi (BitVec.ofNat 32 i.val) 0#32) (BitVec.ofNat 32 j.val) = _
    have hi := toInt_ofNat_small (n := i.val) (by omega)
    have hj := toInt_ofNat_small (n := j.val) (by omega)
    show BitVec.ofBool ((BitVec.ofNat 32 j.val).sle (BitVec.ofNat 32 i.val + 0#32)) = _
    rw [BitVec.add_zero, BitVec.sle, hi, hj]
    split_ifs with h
    · rw [decide_eq_false (by omega)]; rfl
    · rw [decide_eq_true (by omega)]; rfl
  rw [hc]
  have h0 : broadcastInDim S64x64 ![] bcast_S_S64x64 (constant (F := Ideal) S_ .f32 0x00000000#32) (ix2 i j) = 0 := by
    show Ideal.ofBits .f32 0x00000000#32 = 0
    exact Ideal.ofBits_zero_f32
  have h1 : broadcastInDim S64x64 ![] bcast_S_S64x64 (constant (F := Ideal) S_ .f32 0x3F800000#32) (ix2 i j) = 1 := by
    show Ideal.ofBits .f32 0x3F800000#32 = 1
    exact Ideal.ofBits_one_f32
  rw [h0, h1]
  split_ifs
  · exact select_zero _ _
  · exact select_one _ _

/-- The mask of the strict upper triangle at `(i,j)`. -/
theorem mask_apply (i j : Fin 64) :
    Stages.mask (F := Ideal) (ix2 i j) = if i.val < j.val then 1#1 else 0#1 := by
  unfold Stages.mask
  rw [cmpf_apply, triu1_apply]
  have h0 : broadcastInDim S64x64 ![] bcast_S_S64x64 (constant (F := Ideal) S_ .f32 0x00000000#32) (ix2 i j) = 0 := by
    show Ideal.ofBits .f32 0x00000000#32 = 0
    exact Ideal.ofBits_zero_f32
  rw [h0, Ideal.cmpf_def]
  split_ifs with h
  · simp [Ideal.cmp]
  · simp [Ideal.cmp]

/-- The flattened mask at position `n`: one exactly when the row `n / 64` is less than the column `n % 64`. -/
theorem maskWords_apply (n : Fin 4096) :
    Stages.maskWords (F := Ideal) (ix1 n) = BitVec.ofNat 32 (if n.val / 64 < n.val % 64 then 1 else 0) := by
  unfold Stages.maskWords
  rw [extui_apply]
  have hd : n.val / 64 < 64 := by omega
  have hm : n.val % 64 < 64 := Nat.mod_lt _ (by omega)
  rw [shapeCast_apply (Stages.mask (F := Ideal)) shapeCasts_S64x64_S4096 (ix1 n) (ix2 ⟨n.val / 64, hd⟩ ⟨n.val % 64, hm⟩)
    (by rw [Shape.rowMajor_val_two, Shape.rowMajor_val_one]; show n.val / 64 * 64 + n.val % 64 = n.val; omega)]
  rw [mask_apply]
  show (if n.val / 64 < n.val % 64 then 1#1 else 0#1).setWidth 32 = _
  split_ifs <;> decide

abbrev sd := scatter_S2016_S4096x1_S4096_n_0_0_1

/-- The index vector the `m`-th update reads its start from is row `m` of the index column. -/
theorem siIdx_eq (m : Fin 4096) (c : Fin sd.scatterDimsToOperandDims.length) :
    sd.siIdx (ix1 m) c = ix2 m 0 := by
  funext b
  rcases b with ⟨b, hb⟩
  have hb2 : b < 2 := hb
  interval_cases b
  · rfl
  · apply Fin.ext
    have : c.val < 1 := c.isLt
    show c.val = 0
    omega

/-- The position the `m`-th update lands at: the word in row `m` of the index column, read signed. -/
theorem start_window (idx : IVec S4096x1 32) (m : Fin 4096) (a : Fin S2016.rank) :
    sd.start (ix1 m) idx a + (sd.window (ix1 m) a : ℤ) = (idx (ix2 m 0)).toInt := by
  have ha0 : a = (0 : Fin S2016.rank) := by
    apply Fin.ext
    have : a.val < 1 := a.isLt
    show a.val = 0
    omega
  subst ha0
  have hs : sd.start (ix1 m) idx (0 : Fin S2016.rank) = (idx (ix2 m 0)).toInt := by
    unfold ScatterDims.start
    rw [dif_pos (by decide), siIdx_eq]
  have hw : sd.window (ix1 m) (0 : Fin S2016.rank) = 0 := by
    unfold ScatterDims.window
    rw [dif_neg (by decide)]
  rw [hs, hw]; simp

/-- The `m`-th update lands at `k` exactly when the word it reads is `k`. -/
theorem resultIdx_eq_some_iff (idx : IVec S4096x1 32) (m : Fin 4096) (k : Fin 2016) (v : ℕ)
    (hv : (idx (ix2 m 0)).toInt = (v : ℤ)) :
    sd.resultIdx? (ix1 m) idx = some (ix1 k) ↔ v = k.val := by
  unfold ScatterDims.resultIdx?
  split_ifs with h
  · rw [Option.some.injEq]
    constructor
    · intro e
      have e0 := congrArg (fun i : S2016.Idx => (i 0).val) e
      have e1 : (sd.start (ix1 m) idx 0 + (sd.window (ix1 m) 0 : ℤ)).toNat = k.val := e0
      rw [start_window, hv] at e1
      omega
    · intro e
      funext a
      rcases a with ⟨a, ha⟩
      have ha0 : a = 0 := by have : a < 1 := ha; omega
      subst ha0
      apply Fin.ext
      show (sd.start (ix1 m) idx ⟨0, ha⟩ + (sd.window (ix1 m) ⟨0, ha⟩ : ℤ)).toNat = k.val
      rw [start_window, hv]
      omega
  · constructor
    · intro e; cases e
    · intro e
      exfalso
      apply h
      intro a
      rw [start_window, hv]
      rcases a with ⟨a, ha⟩
      have ha0 : a = 0 := by have : a < 1 := ha; omega
      subst ha0
      have hk := k.isLt
      show (0 : ℤ) ≤ (v : ℤ) ∧ (v : ℤ) < ((2016 : ℕ) : ℤ)
      constructor <;> omega

/-- The running count of marked positions: `cs n = #{q ≤ n | q / 64 < q % 64}`. -/
theorem cs_apply (n : Fin 4096) :
    Stages.cs (F := Ideal) (ix1 n) = BitVec.ofNat 32 (Cert.Tri.cnt n.val) := by
  unfold Stages.cs
  refine (cumsum_apply (N := 4096) (Stages.maskWords (F := Ideal)) Stages.zero0
    reduceWindows_S4096_S4096_w4096s1p4095_0 h_S_ rfl (fun q => if q / 64 < q % 64 then 1 else 0)
    (fun q => maskWords_apply q) n).trans ?_
  rw [Cert.Tri.cnt, Finset.card_filter]

theorem cnt_small (n : Fin 4096) : Cert.Tri.cnt n.val < 2 ^ 31 := by
  have := Cert.Tri.cnt_le n.val
  have := n.isLt
  omega

/-- Clipping below at zero leaves the running count as it is. -/
theorem clipped_apply (n : Fin 4096) :
    Stages.clipped (F := Ideal) (ix1 n) = BitVec.ofNat 32 (Cert.Tri.cnt n.val) := by
  show IntOp.maxsi 0#32 (Stages.cs (F := Ideal) (ix1 n)) = _
  rw [cs_apply]
  have ht := toInt_ofNat_small (cnt_small n)
  unfold IntOp.maxsi
  rw [if_neg]
  intro h
  rw [BitVec.slt, ht] at h
  have h' : ((Cert.Tri.cnt n.val : ℕ) : ℤ) < 0 := by simpa using h
  omega

/-- The running count is not negative, so the wrap of negative indices leaves it as it is. -/
theorem idx4096_apply (n : Fin 4096) :
    Stages.idx4096 (F := Ideal) (ix1 n) = BitVec.ofNat 32 (Cert.Tri.cnt n.val) := by
  unfold Stages.idx4096
  rw [select_apply]
  have hcmp : cmpi .slt (Stages.clipped (F := Ideal))
      (broadcastInDim S4096 ![] bcast_S_S4096 (constantI S_ 32 0#32)) (ix1 n) = 0#1 := by
    show IntOp.cmpi .slt (Stages.clipped (F := Ideal) (ix1 n)) 0#32 = 0#1
    rw [clipped_apply]
    have ht := toInt_ofNat_small (cnt_small n)
    show BitVec.ofBool ((BitVec.ofNat 32 (Cert.Tri.cnt n.val)).slt 0#32) = 0#1
    rw [BitVec.slt, ht, decide_eq_false]
    · rfl
    · simp
  rw [hcmp, select_zero, clipped_apply]

/-- The scatter indices at any index of the flattened mask: the running count there. -/
theorem idx4096_apply_idx (n : S4096.Idx) :
    Stages.idx4096 (F := Ideal) n = BitVec.ofNat 32 (Cert.Tri.cnt (n 0).val) := by
  obtain ⟨p, rfl⟩ : ∃ p : Fin 4096, n = ix1 p := ⟨n 0, eq_ix1 n⟩
  exact idx4096_apply p

/-- Row `n` of the column of scatter indices holds the running count at `n`. -/
theorem idxCol_apply (n : Fin 4096) :
    Stages.idxCol (F := Ideal) (ix2 n 0) = BitVec.ofNat 32 (Cert.Tri.cnt n.val) := by
  unfold Stages.idxCol
  rw [broadcastInDim_apply ![0] bcast_S4096_S4096x1_0 (Stages.idx4096 (F := Ideal)) (ix2 n 0) (ix1 n) ?_,
    idx4096_apply]
  intro a
  have ha0 : a = (0 : Fin S4096.rank) := by
    apply Fin.ext
    have : a.val < 1 := a.isLt
    show a.val = 0
    omega
  subst ha0
  rw [if_neg (by decide)]
  rfl

/-- A rank-one index at a row-major position is that position. -/
theorem rowMajor_symm_one {N : ℕ} (n : Fin (⟨1, ![N]⟩ : Shape).numel) (hn : n.val < N) :
    (⟨1, ![N]⟩ : Shape).rowMajor.symm n = ix1 ⟨n.val, hn⟩ := by
  rw [eq_ix1 ((⟨1, ![N]⟩ : Shape).rowMajor.symm n)]
  congr 1
  apply Fin.ext
  exact rowMajor_symm_one_val n

/-- The histogram of the running count: `binc k = #{n < 4096 | cnt n = k}`. -/
theorem binc_apply (k : Fin 2016) :
    Stages.binc (F := Ideal) (ix1 k)
      = BitVec.ofNat 32 ((Finset.range 4096).filter (fun n => Cert.Tri.cnt n = k.val)).card := by
  unfold Stages.binc
  rw [scatter_count scatter_S2016_S4096x1_S4096_n_0_0_1 (Stages.idxCol (F := Ideal))
    (broadcastInDim S2016 ![] bcast_S_S2016 (constantI S_ 32 0#32))
    (broadcastInDim S4096 ![] bcast_S_S4096 (constantI S_ 32 1#32)) (fun _ => rfl) (fun _ => rfl)]
  refine congrArg (BitVec.ofNat 32) ?_
  rw [← List.ofFn_eq_map, List.sum_ofFn, Finset.card_filter, Finset.sum_range]
  refine Fintype.sum_equiv (finCongr (numel_one 4096)) _ _ (fun n => ?_)
  have hn : n.val < 4096 := lt_of_lt_of_eq n.isLt (numel_one 4096)
  have hiff := resultIdx_eq_some_iff (Stages.idxCol (F := Ideal)) ⟨n.val, hn⟩ k (Cert.Tri.cnt n.val)
    (by rw [idxCol_apply]; exact toInt_ofNat_small (cnt_small ⟨n.val, hn⟩))
  rw [rowMajor_symm_one n hn]
  show _ = if Cert.Tri.cnt n.val = k.val then 1 else 0
  by_cases hq : Cert.Tri.cnt n.val = k.val
  · rw [if_pos (hiff.mpr hq), if_pos hq]
  · rw [if_neg (fun e => hq (hiff.mp e)), if_neg hq]

/-- The running sum of the histogram at `k` is the flattened position of the `k`-th marked entry. -/
theorem flat_apply_ix1 (k : Fin 2016) :
    Stages.flat (F := Ideal) (ix1 k) = BitVec.ofNat 32 (Cert.Tri.flatOf k.val) := by
  unfold Stages.flat
  refine (cumsum_apply (N := 2016) (Stages.binc (F := Ideal)) Stages.zero0
    reduceWindows_S2016_S2016_w2016s1p2015_0 h_S_ rfl
    (fun k' => ((Finset.range 4096).filter (fun n => Cert.Tri.cnt n = k')).card)
    (fun q => binc_apply q) k).trans ?_
  rw [Cert.Tri.sum_card_eq Cert.Tri.cnt 4096 k.val, Cert.Tri.card_cnt_le k.isLt]

/-- The reference's table of flattened positions: entry `k` is the position, in the 64×64 matrix read
    row by row, of the `k`-th pair `i < j`. -/
theorem flat_apply (j : S2016.Idx) :
    Stages.flat (F := Ideal) j = BitVec.ofNat 32 (Cert.Tri.flatOf (j 0).val) := by
  obtain ⟨p, rfl⟩ : ∃ p : Fin 2016, j = ix1 p := ⟨j 0, eq_ix1 j⟩
  exact flat_apply_ix1 p

end Cert.ReferenceIdeal.RefFlat

end
-- ==== Proof.RefIdx.lean ====
/-
  The reference's index table, read entry by entry.
  From the running sum `flat k` — the flattened position `64·i + j` of the k-th pair `i < j` — the
  reference computes the row as `(flat k // 64) % 64` and the column as `(flat k // 1) % 64`, with jax's
  floor division and remainder (truncating division and remainder corrected for negative operands) and
  a final wrap of negative indices by 64. All words involved are small and nonnegative, so each
  correction is the identity and the two words are `flat k / 64` and `flat k % 64`: the row and the
  column of the k-th pair. The table puts them side by side as entries `(k, 0)` and `(k, 1)`.
-/
import proofs.«152717_j15745350107452_2_alg».proof.Proof.RefStages
import proofs.«152717_j15745350107452_2_alg».proof.Proof.Pairs
import Idealize.ShloMosaic.Lib.ValueIdx
import Idealize.ShloMosaic.Lib.Pipeline.Value
import Idealize.ShloMosaic.Lib.WordArith
import Idealize.ShloMosaic.Lib.Affine

namespace Cert.ReferenceIdeal.RefIdx

open Cert.ReferenceIdeal Cert.ReferenceIdeal.Gen Idealize.ShloMosaic

/-! ## Words

The reference's index arithmetic on one 32-bit word. All words met here are small and nonnegative
(below 4096), so signed division and remainder are the natural-number quotient and remainder, every
sign test says "nonnegative", and jax's corrections for negative operands never fire. -/

section Words

/-- The sign of a word as `stablehlo.sign` gives it: 0, −1 or 1. -/
def sgnW (x : BitVec 32) : BitVec 32 := if x = 0 then 0 else if x.msb then -1 else 1

/-- jax's floor division on one word: truncating division, less one when the signs differ and the
    remainder is not zero. -/
def floorDivW (a b : BitVec 32) : BitVec 32 :=
  Scalar.select (IntOp.andi (IntOp.cmpi .ne (sgnW a) (sgnW b)) (IntOp.cmpi .ne (IntOp.remsi .host a b) 0#32))
    (IntOp.subi (IntOp.divsi .host a b) 1#32) (IntOp.divsi .host a b)

/-- The divisor jax's remainder divides by: one in place of zero. -/
def safeW (b : BitVec 32) : BitVec 32 := Scalar.select (IntOp.cmpi .eq b 0#32) 1#32 b

/-- jax's remainder on one word: the truncating remainder, plus the divisor when their signs differ and
    it is not zero. -/
def remainderW (a b : BitVec 32) : BitVec 32 :=
  Scalar.select
    (IntOp.andi (IntOp.cmpi .ne (IntOp.cmpi .slt (IntOp.remsi .host a (safeW b)) 0#32) (IntOp.cmpi .slt (safeW b) 0#32))
      (IntOp.cmpi .ne (IntOp.remsi .host a (safeW b)) 0#32))
    (IntOp.addi (IntOp.remsi .host a (safeW b)) (safeW b))
    (IntOp.remsi .host a (safeW b))

/-- A negative index wraps by 64. -/
def wrapW (a : BitVec 32) : BitVec 32 := Scalar.select (IntOp.cmpi .slt a 0#32) (IntOp.addi a 64#32) a

/-- A select whose condition bit is not one takes its second branch. -/
theorem select_of_ne_one {α : Type} {c : BitVec 1} (h : ¬c = 1#1) (A B : α) : Scalar.select c A B = B :=
  if_neg h

variable {x : BitVec 32}

theorem toNat_ofNat_of_lt {n : ℕ} (hn : n < 4096) : (BitVec.ofNat 32 n).toNat = n := by
  rw [BitVec.toNat_ofNat]; omega

theorem msb_false_of_lt (hx : x.toNat < 4096) : x.msb = false := by
  rw [BitVec.msb_eq_false_iff_two_mul_lt]; omega

/-- A small word does not test negative. -/
theorem slt_zero_of_lt (hx : x.toNat < 4096) : ¬IntOp.cmpi .slt x 0#32 = 1#1 := by
  rw [IntOp.cmpi_slt, BitVec.toInt_eq_toNat_of_lt (by omega), show (0#32 : BitVec 32).toInt = 0 from by decide]
  omega

/-- Signed division of a small word by 64 is the natural-number quotient. -/
theorem divsi_64 (hx : x.toNat < 4096) : IntOp.divsi .host x 64#32 = BitVec.ofNat 32 (x.toNat / 64) := by
  have hm := msb_false_of_lt hx
  have hk : (64#32 : BitVec 32).msb = false := by decide
  rw [IntOp.divsi, if_neg (IntOp.not_corner_of_pos (by decide)), BitVec.sdiv_eq, hm, hk]
  dsimp only
  rw [BitVec.udiv_eq]
  apply BitVec.eq_of_toNat_eq
  rw [BitVec.toNat_udiv, show (64#32 : BitVec 32).toNat = 64 from by decide, BitVec.toNat_ofNat]
  omega

/-- The signed remainder of a small word by 64 is the natural-number remainder. -/
theorem remsi_64 (hx : x.toNat < 4096) : IntOp.remsi .host x 64#32 = BitVec.ofNat 32 (x.toNat % 64) := by
  apply BitVec.eq_of_toNat_eq
  rw [IntOp.toNat_remsi .host (by omega) 64 (by omega) (by omega), BitVec.toNat_ofNat]
  omega

/-- Floor division of a small word by 64: the quotient (the signs agree, or the word is zero and so is the
    remainder). -/
theorem floorDivW_64 (hx : x.toNat < 4096) : floorDivW x 64#32 = BitVec.ofNat 32 (x.toNat / 64) := by
  unfold floorDivW
  rw [select_of_ne_one, divsi_64 hx]
  rw [IntOp.andi_eq_one, IntOp.cmpi_ne, IntOp.cmpi_ne]
  rintro ⟨hs, hr⟩
  by_cases h0 : x = 0
  · subst h0
    exact hr (by decide)
  · apply hs
    have hm := msb_false_of_lt hx
    have h64 : sgnW 64#32 = 1#32 := by decide
    rw [h64]
    unfold sgnW
    rw [if_neg h0, hm]
    rfl

/-- Floor division by one is the identity: the remainder is zero. -/
theorem floorDivW_one (x : BitVec 32) : floorDivW x 1#32 = x := by
  unfold floorDivW
  rw [WordArith.remsi_one, WordArith.divsi_one, select_of_ne_one]
  rw [IntOp.andi_eq_one, IntOp.cmpi_ne, IntOp.cmpi_ne]
  rintro ⟨-, h⟩
  exact h rfl

/-- The remainder of a small word by 64: the natural-number remainder (neither it nor 64 is negative). -/
theorem remainderW_64 (hx : x.toNat < 4096) : remainderW x 64#32 = BitVec.ofNat 32 (x.toNat % 64) := by
  have hs : safeW 64#32 = 64#32 := by decide
  unfold remainderW
  rw [hs, select_of_ne_one, remsi_64 hx]
  rw [IntOp.andi_eq_one, IntOp.cmpi_ne]
  rintro ⟨h, -⟩
  apply h
  rw [remsi_64 hx]
  have h1 : IntOp.cmpi .slt (BitVec.ofNat 32 (x.toNat % 64)) 0#32 = 0#1 :=
    ValueIdx.eq_zero_of_ne_one (slt_zero_of_lt (by rw [BitVec.toNat_ofNat]; omega))
  rw [h1]
  decide

/-- A small word is not wrapped. -/
theorem wrapW_of_lt (hx : x.toNat < 4096) : wrapW x = x :=
  select_of_ne_one (slt_zero_of_lt hx) _ _

end Words

/-! ## The stages at an index

Each stage is elementwise, and its scalar operand is a literal: at an index it is the word function of
the element. -/

section Vectors

theorem floorDiv_apply (a : IVec S2016 32) (c : BitVec 32) (j : S2016.Idx) :
    Stages.floorDiv a (constantI S_ 32 c) j = floorDivW (a j) c := rfl

theorem remainder_apply (a : IVec S2016 32) (c : BitVec 32) (j : S2016.Idx) :
    Stages.remainder a (constantI S_ 32 c) j = remainderW (a j) c := rfl

theorem wrap64_apply (a : IVec S2016 32) (j : S2016.Idx) : Stages.wrap64 a j = wrapW (a j) := rfl

variable {F : FTy → Type} [FloatOps F]

/-- The row word of the k-th pair: `(flat k / 64) mod 64`, which is the row since it is below 64. -/
theorem rowWords_apply (hflat : ∀ j : S2016.Idx, Stages.flat (F := F) j = BitVec.ofNat 32 (Cert.Tri.flatOf (j 0).val))
    (j : S2016.Idx) : Stages.rowWords (F := F) j = BitVec.ofNat 32 (Cert.Tri.rowOf (j 0).val) := by
  have hk : (j 0).val < 2016 := (j 0).isLt
  have hf := Cert.Tri.flatOf_lt hk
  have hd := Cert.Tri.flatOf_div hk
  have hr := Cert.Tri.rowOf_lt hk
  unfold Stages.rowWords
  rw [wrap64_apply, remainder_apply, floorDiv_apply, hflat j]
  rw [floorDivW_64 (by rw [toNat_ofNat_of_lt hf]; exact hf), toNat_ofNat_of_lt hf, hd]
  have hr' : (BitVec.ofNat 32 (Cert.Tri.rowOf (j 0).val)).toNat < 4096 := by
    rw [toNat_ofNat_of_lt (by omega)]; omega
  rw [remainderW_64 hr', toNat_ofNat_of_lt (by omega), Nat.mod_eq_of_lt (by omega)]
  exact wrapW_of_lt hr'

/-- The column word of the k-th pair: `(flat k / 1) mod 64`. -/
theorem colWords_apply (hflat : ∀ j : S2016.Idx, Stages.flat (F := F) j = BitVec.ofNat 32 (Cert.Tri.flatOf (j 0).val))
    (j : S2016.Idx) : Stages.colWords (F := F) j = BitVec.ofNat 32 (Cert.Tri.colOf (j 0).val) := by
  have hk : (j 0).val < 2016 := (j 0).isLt
  have hf := Cert.Tri.flatOf_lt hk
  have hm := Cert.Tri.flatOf_mod hk
  have hc := Cert.Tri.colOf_lt hk
  unfold Stages.colWords
  rw [wrap64_apply, remainder_apply, floorDiv_apply, hflat j, floorDivW_one]
  rw [remainderW_64 (by rw [toNat_ofNat_of_lt hf]; exact hf), toNat_ofNat_of_lt hf, hm]
  exact wrapW_of_lt (by rw [toNat_ofNat_of_lt (by omega)]; omega)

end Vectors

/-! ## The index table

The table is the row column and the column column side by side: entry `(k, 0)` reads the first piece,
entry `(k, 1)` the second, each a `[2016]` vector broadcast to a `[2016, 1]` column. -/

section Table

open Idealize.ShloMosaic.ValueIdx

variable {F : FTy → Type} [FloatOps F]

/-- A `[2016]` vector broadcast to a column, read at `(p, 0)`, is the vector at `p`. -/
theorem column_apply (v : IVec S2016 32) (p : Fin 2016) (q : Fin 1) :
    broadcastInDim S2016x1 ![0] bcast_S2016_S2016x1_0 v (ix2 p q) = v (ix1 p) := by
  refine broadcastInDim_apply _ _ v (ix2 p q) (ix1 p) ?_
  intro a
  match a with
  | ⟨0, _⟩ => rfl

theorem idxPair_row (hflat : ∀ j : S2016.Idx, Stages.flat (F := F) j = BitVec.ofNat 32 (Cert.Tri.flatOf (j 0).val))
    (j : S2016x2.Idx) (h0 : (j 1).val = 0) :
    Stages.idxPair (F := F) j = BitVec.ofNat 32 (Cert.Tri.rowOf (j 0).val) := by
  obtain ⟨p, q, rfl⟩ : ∃ (p : Fin 2016) (q : Fin 2), j = ix2 p q := ⟨j 0, j 1, eq_ix2 j⟩
  have hq : q.val = 0 := h0
  unfold Stages.idxPair
  rw [concatenate_pair_apply_left (1 : Fin S2016x2.rank) _ _ concatenates_S2016x1_S2016x1_S2016x2_d1 (ix2 p q) rfl
    (ix2 p (0 : Fin 1)) ?_]
  · rw [column_apply, rowWords_apply hflat]
  · intro b
    match b with
    | ⟨0, _⟩ => rfl
    | ⟨1, _⟩ => exact hq.symm

theorem idxPair_col (hflat : ∀ j : S2016.Idx, Stages.flat (F := F) j = BitVec.ofNat 32 (Cert.Tri.flatOf (j 0).val))
    (j : S2016x2.Idx) (h1 : (j 1).val = 1) :
    Stages.idxPair (F := F) j = BitVec.ofNat 32 (Cert.Tri.colOf (j 0).val) := by
  obtain ⟨p, q, rfl⟩ : ∃ (p : Fin 2016) (q : Fin 2), j = ix2 p q := ⟨j 0, j 1, eq_ix2 j⟩
  have hq : q.val = 1 := h1
  unfold Stages.idxPair
  rw [concatenate_pair_apply_right (1 : Fin S2016x2.rank) _ _ concatenates_S2016x1_S2016x1_S2016x2_d1 (ix2 p q) rfl rfl
    (ix2 p (0 : Fin 1)) ?_ ?_]
  · rw [column_apply, colWords_apply hflat]
  · intro b hb
    match b, hb with
    | ⟨0, _⟩, _ => rfl
    | ⟨1, _⟩, hb => exact absurd rfl hb
  · show 0 + 1 = q.val
    omega

end Table

end Cert.ReferenceIdeal.RefIdx
-- ==== Proof.RefOut.lean ====
/-
  The reference's float side. Its one matrix product is the Gram matrix of every batch entry,
  `gram x (b,i,j) = Σ_d x(b,i,d)·x(b,j,d)`, and its gather reads, for result entry `(b, p)`, the
  Gram matrix at batch entry `b`, at the row and the column that the index table's entries
  `(p,0)` and `(p,1)` name (read as signed words and clamped into `0 … 63`, which leaves a
  number below 64 unchanged). With the table's p-th entry the p-th pair `i < j`, the result is
  the specification `Spec.G x`.
-/
import proofs.«152717_j15745350107452_2_alg».proof.Proof.RefStages
import proofs.«152717_j15745350107452_2_alg».proof.Proof.Spec
import Idealize.ShloMosaic.PureOps.Ideal.Laws
import Idealize.ShloMosaic.Lib.ValueIdx

noncomputable section

namespace Cert.ReferenceIdeal.RefOut

open Cert.ReferenceIdeal Cert.ReferenceIdeal.Gen Idealize.ShloMosaic Idealize.ShloMosaic.ValueIdx

/-- The product's dimension numbers contract one axis, of extent 128. -/
theorem contr_rank : dot_S16384x64x128_S16384x64x128_S16384x64x64_2_2_1_1_0_0.contr.rank = 1 := rfl
theorem contr_size : dot_S16384x64x128_S16384x64x128_S16384x64x64_2_2_1_1_0_0.contr.size ⟨0, by rw [contr_rank]; exact Nat.one_pos⟩ = 128 := rfl

/-- The Gram matrix at `(b, i, j)`. -/
theorem gram_apply (x : FVec Ideal S16384x64x128 .f32) (b : Fin 16384) (i j : Fin 64) :
    Stages.gram (F := Ideal) x (ix3 b i j) = ∑ d : Fin 128, x (ix3 b i d) * x (ix3 b j d) := by
  unfold Stages.gram
  refine (Ideal.dotGeneral_apply dot_S16384x64x128_S16384x64x128_S16384x64x64_2_2_1_1_0_0 none _ x x (ix3 b i j)).trans ?_
  rw [← Equiv.sum_comp (contrEquiv1 dot_S16384x64x128_S16384x64x128_S16384x64x64_2_2_1_1_0_0 128 contr_rank contr_size).symm]
  refine Finset.sum_congr rfl fun d _ => ?_
  have hk := contrEquiv1_symm_val dot_S16384x64x128_S16384x64x128_S16384x64x64_2_2_1_1_0_0 128 contr_rank contr_size d
  generalize (contrEquiv1 dot_S16384x64x128_S16384x64x128_S16384x64x64_2_2_1_1_0_0 128 contr_rank contr_size).symm d = k at hk
  have hl : dot_S16384x64x128_S16384x64x128_S16384x64x64_2_2_1_1_0_0.lhsIdx (ix3 b i j) k = ix3 b i d := by
    funext a; apply Fin.ext
    match a with
    | ⟨0, _⟩ => rfl
    | ⟨1, _⟩ => rfl
    | ⟨2, _⟩ => exact hk
  have hr : dot_S16384x64x128_S16384x64x128_S16384x64x64_2_2_1_1_0_0.rhsIdx (ix3 b i j) k = ix3 b j d := by
    funext a; apply Fin.ext
    match a with
    | ⟨0, _⟩ => rfl
    | ⟨1, _⟩ => rfl
    | ⟨2, _⟩ => exact hk
  rw [hl, hr]

/-- A number below `2^31`, written as a 32-bit word and read back signed, is itself. -/
theorem toInt_toNat_ofNat (n : ℕ) (h : n < 2 ^ 31) : (BitVec.ofNat 32 n).toInt.toNat = n := by
  have h1 : (BitVec.ofNat 32 n).toNat = n := by
    rw [BitVec.toNat_ofNat]; exact Nat.mod_eq_of_lt (by omega)
  rw [BitVec.toInt_eq_toNat_cond, h1]
  split <;> omega

/-- The gather read at `(b, p)`, for ANY operand `g` and ANY index table `idx` whose entries `(p,0)`, `(p,1)`
    are the words of `r`, `c`: the operand at `(b, r, c)`. (The table is a variable here on purpose: its
    contents play no part in where the gather reads.) -/
theorem gather_apply {α : Type} (g : S16384x64x64.Idx → α) (idx : IVec S2016x2 32)
    (b : Fin 16384) (p : Fin 2016) (r c : Fin 64)
    (hr : idx (ix2 p (0 : Fin 2)) = BitVec.ofNat 32 r.val)
    (hc : idx (ix2 p (1 : Fin 2)) = BitVec.ofNat 32 c.val) :
    Host.gather gather_S16384x64x64_S2016x2_S16384x2016_0_12_n_n_12_1_1638411 g idx (ix2 b p) = g (ix3 b r c) := by
  unfold Host.gather
  refine congrArg g ?_
  funext a; apply Fin.ext
  match a with
  | ⟨0, _⟩ =>
    show gather_S16384x64x64_S2016x2_S16384x2016_0_12_n_n_12_1_1638411.start (ix2 b p) idx 0 + gather_S16384x64x64_S2016x2_S16384x2016_0_12_n_n_12_1_1638411.batchCoord (ix2 b p) 0 + gather_S16384x64x64_S2016x2_S16384x2016_0_12_n_n_12_1_1638411.offCoord (ix2 b p) 0 = b.val
    rw [GatherDims.batchCoord_eq_zero _ _ _ List.not_mem_nil]
    unfold GatherDims.start
    rw [dif_neg (by decide)]
    show 0 + 0 + gather_S16384x64x64_S2016x2_S16384x2016_0_12_n_n_12_1_1638411.offCoord (ix2 b p) 0 = b.val
    simp only [Nat.zero_add]
    rfl
  | ⟨1, _⟩ =>
    show gather_S16384x64x64_S2016x2_S16384x2016_0_12_n_n_12_1_1638411.start (ix2 b p) idx 1 + gather_S16384x64x64_S2016x2_S16384x2016_0_12_n_n_12_1_1638411.batchCoord (ix2 b p) 1 + gather_S16384x64x64_S2016x2_S16384x2016_0_12_n_n_12_1_1638411.offCoord (ix2 b p) 1 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S16384x64x64_S2016x2_S16384x2016_0_12_n_n_12_1_1638411.startIndexMap by decide)]
    have hsi : gather_S16384x64x64_S2016x2_S16384x2016_0_12_n_n_12_1_1638411.siIdx (ix2 b p) ⟨List.idxOf (1 : Fin 3) gather_S16384x64x64_S2016x2_S16384x2016_0_12_n_n_12_1_1638411.startIndexMap,
        List.idxOf_lt_length_iff.2 (by decide)⟩ = ix2 p (0 : Fin 2) := by
      funext b'; refine Fin.ext ?_
      match b' with
      | ⟨0, _⟩ => rfl
      | ⟨1, _⟩ => rfl
    rw [hsi, hr, toInt_toNat_ofNat _ (by have := r.isLt; omega)]
    show min r.val (64 - 1) = r.val
    have := r.isLt; omega
  | ⟨2, _⟩ =>
    show gather_S16384x64x64_S2016x2_S16384x2016_0_12_n_n_12_1_1638411.start (ix2 b p) idx 2 + gather_S16384x64x64_S2016x2_S16384x2016_0_12_n_n_12_1_1638411.batchCoord (ix2 b p) 2 + gather_S16384x64x64_S2016x2_S16384x2016_0_12_n_n_12_1_1638411.offCoord (ix2 b p) 2 = c.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 3) ∈ gather_S16384x64x64_S2016x2_S16384x2016_0_12_n_n_12_1_1638411.startIndexMap by decide)]
    have hsi : gather_S16384x64x64_S2016x2_S16384x2016_0_12_n_n_12_1_1638411.siIdx (ix2 b p) ⟨List.idxOf (2 : Fin 3) gather_S16384x64x64_S2016x2_S16384x2016_0_12_n_n_12_1_1638411.startIndexMap,
        List.idxOf_lt_length_iff.2 (by decide)⟩ = ix2 p (1 : Fin 2) := by
      funext b'; refine Fin.ext ?_
      match b' with
      | ⟨0, _⟩ => rfl
      | ⟨1, _⟩ => rfl
    rw [hsi, hc, toInt_toNat_ofNat _ (by have := c.isLt; omega)]
    show min c.val (64 - 1) = c.val
    have := c.isLt; omega

/-- The reference's result at `(b, p)` when the table's entries `(p,0)`, `(p,1)` are the words of `r`, `c`. -/
theorem out_apply (x : FVec Ideal S16384x64x128 .f32) (b : Fin 16384) (p : Fin 2016) (r c : Fin 64)
    (hr : Stages.idxPair (F := Ideal) (ix2 p (0 : Fin 2)) = BitVec.ofNat 32 r.val)
    (hc : Stages.idxPair (F := Ideal) (ix2 p (1 : Fin 2)) = BitVec.ofNat 32 c.val) :
    Stages.out (F := Ideal) x (ix2 b p) = Stages.gram (F := Ideal) x (ix3 b r c) :=
  gather_apply (Stages.gram (F := Ideal) x) (Stages.idxPair (F := Ideal)) b p r c hr hc

/-- The reference's result is the specification, given the index table's entries. -/
theorem out_eq_G (x : FVec Ideal S16384x64x128 .f32)
    (hrow : ∀ p : Fin 2016, Stages.idxPair (F := Ideal) (ix2 p (0 : Fin 2)) = BitVec.ofNat 32 (Cert.Tri.rowOf p.val))
    (hcol : ∀ p : Fin 2016, Stages.idxPair (F := Ideal) (ix2 p (1 : Fin 2)) = BitVec.ofNat 32 (Cert.Tri.colOf p.val)) :
    Stages.out (F := Ideal) x = Cert.Spec.G x := by
  funext o
  obtain ⟨b, p, rfl⟩ : ∃ (b : Fin 16384) (p : Fin 2016), o = ix2 b p := ⟨o 0, o 1, eq_ix2 o⟩
  rw [out_apply x b p (Cert.Spec.rowF p) (Cert.Spec.colF p) (hrow p) (hcol p), gram_apply]
  rfl

end Cert.ReferenceIdeal.RefOut

end
-- ==== Proof.lean ====
/-
  The certificate. The kernel and its jnp reference both compute, for `x : [16384, 64, 128]`, the
  packed strict upper triangle of every batch entry's Gram matrix:
  `out(b, p) = Σ_d x(b, i_p, d) · x(b, j_p, d)`, `(i_p, j_p)` the p-th pair `i < j` of `{0..63}` in
  row-major order (`Spec.G`).
  * The kernel forms the Gram block of 256 batch entries on the matrix unit, cuts each row right
    of the diagonal and joins the 63 cuts side by side (KernelGram, KernelPack); its 64 row blocks
    cover the result (KernelValue).
  * The reference forms the whole Gram matrix with one product and gathers it at an index table
    it computes at run time: the mask `i < j` flattened, its running count, the histogram of the
    running count, the histogram's running sum — the position of the p-th marked entry
    (RefFlat, over the counting facts of Pairs) — and that position's quotient and remainder by
    64 (RefIdx). Its straight-line run is RefRun, the gather's reading RefOut.
  Both sums range over the same products in the same order, so no property of the inputs is used:
  the finiteness precondition is never opened. The idealization changed no operation, so the
  `preserves` claim is `True`.
-/
import proofs.«152717_j15745350107452_2_alg».proof.Defs
import proofs.«152717_j15745350107452_2_alg».proof.Proof.Gen.Kernel
import proofs.«152717_j15745350107452_2_alg».proof.Proof.Gen.Kernel.Frame
import proofs.«152717_j15745350107452_2_alg».proof.Proof.Gen.KernelIdeal
import proofs.«152717_j15745350107452_2_alg».proof.Proof.Gen.KernelIdeal.Frame
import proofs.«152717_j15745350107452_2_alg».proof.Proof.Gen.KernelIdeal.Value
import proofs.«152717_j15745350107452_2_alg».proof.Proof.Gen.ReferenceIdeal
import proofs.«152717_j15745350107452_2_alg».proof.Proof.Gen.Pre_finite_inputs
import proofs.«152717_j15745350107452_2_alg».proof.Proof.KernelValue
import proofs.«152717_j15745350107452_2_alg».proof.Proof.RefRun
import proofs.«152717_j15745350107452_2_alg».proof.Proof.RefFlat
import proofs.«152717_j15745350107452_2_alg».proof.Proof.RefIdx
import proofs.«152717_j15745350107452_2_alg».proof.Proof.RefOut
import Idealize.ShloMosaic.Adequacy
import Idealize.ShloMosaic.Init

noncomputable section

namespace Cert.Proof

open Idealize.ShloMosaic Idealize.SL.Sem Idealize.ShloMosaic.ValueIdx

/-- The three programs run to the end, fault-free, and leave their argument as they found it. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame (F := Ideal) m ρ

/-- The reference's index table holds the p-th pair's row … -/
theorem table_row (p : Fin 2016) :
    Cert.ReferenceIdeal.Stages.idxPair (F := Ideal) (ix2 p (0 : Fin 2)) = BitVec.ofNat 32 (Cert.Tri.rowOf p.val) :=
  Cert.ReferenceIdeal.RefIdx.idxPair_row (F := Ideal) Cert.ReferenceIdeal.RefFlat.flat_apply (ix2 p (0 : Fin 2)) rfl

/-- … and column. -/
theorem table_col (p : Fin 2016) :
    Cert.ReferenceIdeal.Stages.idxPair (F := Ideal) (ix2 p (1 : Fin 2)) = BitVec.ofNat 32 (Cert.Tri.colOf p.val) :=
  Cert.ReferenceIdeal.RefIdx.idxPair_col (F := Ideal) Cert.ReferenceIdeal.RefFlat.flat_apply (ix2 p (1 : Fin 2)) rfl

/-- From arguments that agree, both idealized programs end with the specification of the argument. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.PackedValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefOut.out_eq_G _ table_row table_col

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
